-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S48x262144 : Shape := ⟨2, ![48, 262144]⟩
abbrev S48x16x16 : Shape := ⟨3, ![48, 16, 16]⟩
abbrev S8x2048 : Shape := ⟨2, ![8, 2048]⟩
abbrev S8x16x16 : Shape := ⟨3, ![8, 16, 16]⟩
abbrev S8x2048x1 : Shape := ⟨3, ![8, 2048, 1]⟩
abbrev S1x1x16 : Shape := ⟨3, ![1, 1, 16]⟩
abbrev S8x2048x16 : Shape := ⟨3, ![8, 2048, 16]⟩
abbrev S16x3x256 : Shape := ⟨3, ![16, 3, 256]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x262144, .f32⟩
  | .hbm, ⟨3, _⟩ => ⟨S48x262144, .f32⟩
  | .hbm, ⟨4, _⟩ => ⟨S48x16x16, .f32⟩
  | .hbm, ⟨5, _⟩ => ⟨S48x16x16, .f32⟩
  | .hbm, ⟨6, _⟩ => ⟨S16x3x256, .f32⟩
  | .hbm, ⟨7, _⟩ => ⟨S_, .f32⟩
  | .hbm, ⟨8, _⟩ => ⟨S16x3x256, .f32⟩
  | .hbm, ⟨9, _⟩ => ⟨S16x3x256, .f32⟩
  | .hbm, ⟨10, _⟩ => ⟨S16x3x256, .f32⟩
  | .hbm, ⟨11, _⟩ => ⟨S_, .f32⟩
  | .hbm, ⟨12, _⟩ => ⟨S16x3x256, .f32⟩
  | .hbm, ⟨13, _⟩ => ⟨S16x3x256, .f32⟩
  | .hbm, ⟨14, _⟩ => ⟨S16x3x256, .f32⟩
  | .hbm, ⟨15, _⟩ => ⟨S16x3x256, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x16x16, .f32⟩
  | .local _ .vmem, ⟨5, _⟩ => ⟨S8x16x16, .f32⟩
  | .local _ .vmem, ⟨6, _⟩ => ⟨S8x16x16, .f32⟩
  | .local _ .vmem, ⟨7, _⟩ => ⟨S8x16x16, .f32⟩
  | .local _ .vmem, ⟨8, _⟩ => ⟨S8x16x16, .f32⟩
  | .local _ .vmem, ⟨9, _⟩ => ⟨S8x16x16, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 128], ![false, false]⟩

def k0_cond2 (i : grid0.Coords) : BitVec 1 :=
  let arg1 : BitVec 32 := BitVec.ofNat 32 (i 1).val
  let c127_i32 : BitVec 32 := 127#32
  let v71 : BitVec 1 := Scalar.cmpi .eq arg1 c127_i32
  let v72 : BitVec 32 := Scalar.extui v71
  let c0_i32_25 : BitVec 32 := 0#32
  let v73 : BitVec 1 := Scalar.cmpi .ne v72 c0_i32_25
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x3x512x512_S48x262144 : S16x3x512x512.ShapeCasts S48x262144
  inb_S8x16x16_S8x16x16_0_0_0 : ∀ a, (![0, 0, 0] : Fin 3 → Nat) a + S8x16x16.size a ≤ S8x16x16.size a
  h_S8x16x16 : 0 < S8x16x16.numel
  shapeCasts_S8x16x16_S8x16x16 : S8x16x16.ShapeCasts S8x16x16
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S8x2048_S8x2048x1 : S8x2048.ShapeCasts S8x2048x1
  iota_S1x1x16_d2_w32 : S1x1x16.Iotas .tc 32 [2]
  broadcasts_S8x2048x1_S8x2048x16 : S8x2048x1.Broadcasts S8x2048x16
  broadcasts_S1x1x16_S8x2048x16 : S1x1x16.Broadcasts S8x2048x16
  natLt_1_32 : 1 < 32
  bitsLt_bf16_f32 : FTy.bits .bf16 < FTy.bits .f32
  shapeCasts_S48x16x16_S16x3x256 : S48x16x16.ShapeCasts S16x3x256
  bcast_S_S16x3x256 : S_.BroadcastsInDim S16x3x256 (![] : Fin 0 → Fin S16x3x256.rank)
  reducesTo_S16x3x256_S_d0_1_2 : S16x3x256.ReducesTo [0, 1, 2] S_
  h_S_ : 0 < S_.numel
  dot_S8x2048x16_S8x2048x16_S8x16x16_1_1_2_2_0_0_wf : DotDims.WF S8x2048x16 S8x2048x16 S8x16x16 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S48x262144.size a
  hwx0_0 : ∀ i : grid0.Coords, EltTy.bits .f32 = 32 ∨ (Rect.block (s := S48x262144) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S48x262144.size a
  hwx0_1 : ∀ i : grid0.Coords, EltTy.bits .f32 = 32 ∨ (Rect.block (s := S48x262144) S8x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x16.size a ≤ S48x16x16.size a
  hwx0_2 : ∀ i : grid0.Coords, EltTy.bits .f32 = 32 ∨ (Rect.block (s := S48x16x16) S8x16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x16.size a ≤ S48x16x16.size a
  hwx0_3 : ∀ i : grid0.Coords, EltTy.bits .f32 = 32 ∨ (Rect.block (s := S48x16x16) S8x16x16.size (cc0_transform_3 i) (hinb0_3 i)).WholeWords (EltTy.packing .f32)

variable [Facts₀]

def dot_S8x2048x16_S8x2048x16_S8x16x16_1_1_2_2_0_0 : DotDims S8x2048x16 S8x2048x16 S8x16x16 where
  lhsContracting := [1]
  rhsContracting := [1]
  lhsNonContracting := [2]
  rhsNonContracting := [2]
  lhsBatch := [0]
  rhsBatch := [0]
  wf := dot_S8x2048x16_S8x2048x16_S8x16x16_1_1_2_2_0_0_wf

abbrev win0_0 : Pipeline.Window sig grid0 :=
  Pipeline.Window.ofSpec (Memref.whole main_v0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x16x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S_ : Shape := ⟨0, ![]⟩
abbrev S48 : Shape := ⟨1, ![48]⟩
abbrev S48x1 : Shape := ⟨2, ![48, 1]⟩
abbrev S48x262144 : Shape := ⟨2, ![48, 262144]⟩
abbrev S12582912 : Shape := ⟨1, ![12582912]⟩
abbrev S12288 : Shape := ⟨1, ![12288]⟩
abbrev S12582912x1 : Shape := ⟨2, ![12582912, 1]⟩
abbrev S16x3x256 : Shape := ⟨3, ![16, 3, 256]⟩

abbrev nBuf : Space → Nat
  | .hbm => 84
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S16x3x512x512, .f32⟩
  | .hbm, ⟨4, _⟩ => ⟨S16x3x512x512, .f32⟩
  | .hbm, ⟨5, _⟩ => ⟨S_, .i32⟩
  | .hbm, ⟨6, _⟩ => ⟨S_, .i32⟩
  | .hbm, ⟨7, _⟩ => ⟨S_, .f32⟩
  | .hbm, ⟨8, _⟩ => ⟨S16x3x512x512, .f32⟩
  | .hbm, ⟨9, _⟩ => ⟨S16x3x512x512, .f32⟩
  | .hbm, ⟨10, _⟩ => ⟨S_, .f32⟩
  | .hbm, ⟨11, _⟩ => ⟨S16x3x512x512, .f32⟩
  | .hbm, ⟨12, _⟩ => ⟨S16x3x512x512, .f32⟩
  | .hbm, ⟨13, _⟩ => ⟨S16x3x512x512, .i32⟩
  | .hbm, ⟨14, _⟩ => ⟨S48, .i32⟩
  | .hbm, ⟨15, _⟩ => ⟨S48x1, .i32⟩
  | .hbm, ⟨16, _⟩ => ⟨S_, .i32⟩
  | .hbm, ⟨17, _⟩ => ⟨S48x1, .i32⟩
  | .hbm, ⟨18, _⟩ => ⟨S48x1, .i32⟩
  | .hbm, ⟨19, _⟩ => ⟨S48x262144, .i32⟩
  | .hbm, ⟨20, _⟩ => ⟨S48x262144, .i32⟩
  | .hbm, ⟨21, _⟩ => ⟨S48x262144, .i32⟩
  | .hbm, ⟨22, _⟩ => ⟨S12582912, .i32⟩
  | .hbm, ⟨23, _⟩ => ⟨S_, .f32⟩
  | .hbm, ⟨24, _⟩ => ⟨S12288, .f32⟩
  | .hbm, ⟨25, _⟩ => ⟨S_, .i32⟩
  | .hbm, ⟨26, _⟩ => ⟨S12582912, .i32⟩
  | .hbm, ⟨27, _⟩ => ⟨S12582912, .i1⟩
  | .hbm, ⟨28, _⟩ => ⟨S_, .i32⟩
  | .hbm, ⟨29, _⟩ => ⟨S12582912, .i32⟩
  | .hbm, ⟨30, _⟩ => ⟨S12582912, .i32⟩
  | .hbm, ⟨31, _⟩ => ⟨S12582912, .i32⟩
  | .hbm, ⟨32, _⟩ => ⟨S12582912x1, .i32⟩
  | .hbm, ⟨33, _⟩ => ⟨S_, .f32⟩
  | .hbm, ⟨34, _⟩ => ⟨S12582912, .f32⟩
  | .hbm, ⟨35, _⟩ => ⟨S12288, .f32⟩
  | .hbm, ⟨36, _⟩ => ⟨S16x3x256, .f32⟩
  | .hbm, ⟨37, _⟩ => ⟨S_, .f32⟩
  | .hbm, ⟨38, _⟩ => ⟨S16x3x256, .f32⟩
  | .hbm, ⟨39, _⟩ => ⟨S16x3x256, .f32⟩
  | .hbm, ⟨40, _⟩ => ⟨S_, .f32⟩
  | .hbm, ⟨41, _⟩ => ⟨S16x3x512x512, .f32⟩
  | .hbm, ⟨42, _⟩ => ⟨S16x3x512x512, .f32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S16x3x512x512, .f32⟩
  | .hbm, ⟨47, _⟩ => ⟨S16x3x512x512, .f32⟩
  | .hbm, ⟨48, _⟩ => ⟨S_, .f32⟩
  | .hbm, ⟨49, _⟩ => ⟨S16x3x512x512, .f32⟩
  | .hbm, ⟨50, _⟩ => ⟨S16x3x512x512, .f32⟩
  | .hbm, ⟨51, _⟩ => ⟨S16x3x512x512, .i32⟩
  | .hbm, ⟨52, _⟩ => ⟨S48, .i32⟩
  | .hbm, ⟨53, _⟩ => ⟨S48x1, .i32⟩
  | .hbm, ⟨54, _⟩ => ⟨S_, .i32⟩
  | .hbm, ⟨55, _⟩ => ⟨S48x1, .i32⟩
  | .hbm, ⟨56, _⟩ => ⟨S48x1, .i32⟩
  | .hbm, ⟨57, _⟩ => ⟨S48x262144, .i32⟩
  | .hbm, ⟨58, _⟩ => ⟨S48x262144, .i32⟩
  | .hbm, ⟨59, _⟩ => ⟨S48x262144, .i32⟩
  | .hbm, ⟨60, _⟩ => ⟨S12582912, .i32⟩
  | .hbm, ⟨61, _⟩ => ⟨S_, .f32⟩
  | .hbm, ⟨62, _⟩ => ⟨S12288, .f32⟩
  | .hbm, ⟨63, _⟩ => ⟨S_, .i32⟩
  | .hbm, ⟨64, _⟩ => ⟨S12582912, .i32⟩
  | .hbm, ⟨65, _⟩ => ⟨S12582912, .i1⟩
  | .hbm, ⟨66, _⟩ => ⟨S_, .i32⟩
  | .hbm, ⟨67, _⟩ => ⟨S12582912, .i32⟩
  | .hbm, ⟨68, _⟩ => ⟨S12582912, .i32⟩
  | .hbm, ⟨69, _⟩ => ⟨S12582912, .i32⟩
  | .hbm, ⟨70, _⟩ => ⟨S12582912x1, .i32⟩
  | .hbm, ⟨71, _⟩ => ⟨S_, .f32⟩
  | .hbm, ⟨72, _⟩ => ⟨S12582912, .f32⟩
  | .hbm, ⟨73, _⟩ => ⟨S12288, .f32⟩
  | .hbm, ⟨74, _⟩ => ⟨S16x3x256, .f32⟩
  | .hbm, ⟨75, _⟩ => ⟨S_, .f32⟩
  | .hbm, ⟨76, _⟩ => ⟨S16x3x256, .f32⟩
  | .hbm, ⟨77, _⟩ => ⟨S16x3x256, .f32⟩
  | .hbm, ⟨78, _⟩ => ⟨S16x3x256, .f32⟩
  | .hbm, ⟨79, _⟩ => ⟨S16x3x256, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_c_9 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_c_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_14 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_15 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_16 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩

abbrev nD : Nat := 1
abbrev τ : Topo := Topo.v7x

variable {F : FTy → Type} [FloatOps F]

class Facts₀ : Prop where
  bcast_S_S16x3x512x512 : S_.BroadcastsInDim S16x3x512x512 (![] : Fin 0 → Fin S16x3x512x512.rank)
  bcast_S48_S48x1_0 : S48.BroadcastsInDim S48x1 (![0] : Fin 1 → Fin S48x1.rank)
  bcast_S_S48x1 : S_.BroadcastsInDim S48x1 (![] : Fin 0 → Fin S48x1.rank)
  shapeCasts_S16x3x512x512_S48x262144 : S16x3x512x512.ShapeCasts S48x262144
  bcast_S48x1_S48x262144_0_1 : S48x1.BroadcastsInDim S48x262144 (![0, 1] : Fin 2 → Fin S48x262144.rank)
  shapeCasts_S48x262144_S12582912 : S48x262144.ShapeCasts S12582912
  bcast_S_S12288 : S_.BroadcastsInDim S12288 (![] : Fin 0 → Fin S12288.rank)
  bcast_S_S12582912 : S_.BroadcastsInDim S12582912 (![] : Fin 0 → Fin S12582912.rank)
  bcast_S12582912_S12582912x1_0 : S12582912.BroadcastsInDim S12582912x1 (![0] : Fin 1 → Fin S12582912x1.rank)
  shapeCasts_S12288_S16x3x256 : S12288.ShapeCasts S16x3x256
  bcast_S_S16x3x256 : S_.BroadcastsInDim S16x3x256 (![] : Fin 0 → Fin S16x3x256.rank)
  reducesTo_S16x3x256_S_d0_1_2 : S16x3x256.ReducesTo [0, 1, 2] S_
  h_S_ : 0 < S_.numel
  scatter_S12288_S12582912x1_S12582912_n_0_0_1_wf : ScatterDims.WF S12288 S12582912x1 S12582912 [] [0] [0] 1

variable [Facts₀]

def scatter_S12288_S12582912x1_S12582912_n_0_0_1 : ScatterDims S12288 S12582912x1 S12582912 where
  updateWindowDims := []
  insertedWindowDims := [0]
  scatterDimsToOperandDims := [0]
  indexVectorDim := 1
  wf := scatter_S12288_S12582912x1_S12582912_n_0_0_1_wf

class Facts : Prop extends Facts₀ where

variable [Facts]
-- ==== Proof.KernelPieces.lean ====
/-
  What one run of the kernel body leaves behind, as values.

  The body keeps two running tables in scratch memory, one per input.  At a first tile it fills a table with zeros and
  then adds the tile's counts; at every other tile it adds the tile's counts to what the tile before left; at a last tile
  it also copies both tables to the two outputs.  Each such store covers its whole buffer, so what a buffer holds
  afterwards is the last store's value, and a load that follows a covering store reads that store's value.
-/
import proofs.«172190_j80625126080915_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! First tile: zeros, then the tile's counts added. -/

theorem firstP (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : cond0_0 i) (hc1 : ¬cond0_1 i)
    (x0 x1 : Vec F S8x2048 .f32) :
    sout0_A_0 c i a2 h2 a3 h3 a4 h4 a5 h5 a6 h6 a7 h7 hc0 hc1 x0 x1 = k0_pay4 x0 (k0_pay2 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S8x16x16) hz3, View.readCov_unit_zero (S := S8x16x16) _ hz3]
  simp only [View.readAt_eq_ld, h2.read_unread, h3.read_unread, View.ld_unit_zero (S := S8x2048) hz2]

theorem firstT (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : cond0_0 i) (hc1 : ¬cond0_1 i)
    (x0 x1 : Vec F S8x2048 .f32) :
    sout0_A_1 c i a2 h2 a3 h3 a4 h4 a5 h5 a6 h6 a7 h7 hc0 hc1 x0 x1 = k0_pay1 x1 (k0_pay3 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S8x16x16) hz3, View.readCov_unit_zero (S := S8x16x16) _ hz3]
  simp only [View.readAt_eq_ld, h2.read_unread, h3.read_unread, View.ld_unit_zero (S := S8x2048) hz2]

/-! A middle tile: the tile's counts added to what the tile before left. -/

theorem midP (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : ¬cond0_0 i) (hc1 : ¬cond0_1 i)
    (x0 x1 : Vec F S8x2048 .f32) (xs0 xs1 : Vec F S8x16x16 .f32) :
    sout0_B_0 c i a2 h2 a3 h3 a4 h4 a5 h5 a6 h6 a7 h7 hc0 hc1 x0 x1 xs0 xs1 = k0_pay4 x0 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  try sl_unfold_words
  rw [View.canon_unit_zero hz3]
  simp only [View.readAt_eq_ld, h2.read_unread, h3.read_unread, h6.read_unread, h7.read_unread, View.ld_unit_zero (S := S8x2048) hz2, View.ld_unit_zero (S := S8x16x16) hz3]

theorem midT (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : ¬cond0_0 i) (hc1 : ¬cond0_1 i)
    (x0 x1 : Vec F S8x2048 .f32) (xs0 xs1 : Vec F S8x16x16 .f32) :
    sout0_B_1 c i a2 h2 a3 h3 a4 h4 a5 h5 a6 h6 a7 h7 hc0 hc1 x0 x1 xs0 xs1 = k0_pay1 x1 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  try sl_unfold_words
  rw [View.canon_unit_zero hz3]
  simp only [View.readAt_eq_ld, h2.read_unread, h3.read_unread, h6.read_unread, h7.read_unread, View.ld_unit_zero (S := S8x2048) hz2, View.ld_unit_zero (S := S8x16x16) hz3]

/-! A last tile: the same sums in scratch, and copied to the outputs. -/

theorem lastP (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : ¬cond0_0 i) (hc1 : cond0_1 i)
    (x0 x1 : Vec F S8x2048 .f32) (xs0 xs1 : Vec F S8x16x16 .f32) :
    sout0_C_0 c i a2 h2 a3 h3 a4 h4 a5 h5 a6 h6 a7 h7 hc0 hc1 x0 x1 xs0 xs1 = k0_pay4 x0 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  try sl_unfold_words
  rw [View.canon_unit_zero hz3]
  simp only [View.readAt_eq_ld, h2.read_unread, h3.read_unread, h6.read_unread, h7.read_unread, View.ld_unit_zero (S := S8x2048) hz2, View.ld_unit_zero (S := S8x16x16) hz3]

theorem lastT (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : ¬cond0_0 i) (hc1 : cond0_1 i)
    (x0 x1 : Vec F S8x2048 .f32) (xs0 xs1 : Vec F S8x16x16 .f32) :
    sout0_C_1 c i a2 h2 a3 h3 a4 h4 a5 h5 a6 h6 a7 h7 hc0 hc1 x0 x1 xs0 xs1 = k0_pay1 x1 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  try sl_unfold_words
  rw [View.canon_unit_zero hz3]
  simp only [View.readAt_eq_ld, h2.read_unread, h3.read_unread, h6.read_unread, h7.read_unread, View.ld_unit_zero (S := S8x2048) hz2, View.ld_unit_zero (S := S8x16x16) hz3]

theorem outP (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : ¬cond0_0 i) (hc1 : cond0_1 i)
    (x0 x1 : Vec F S8x2048 .f32) (xs0 xs1 : Vec F S8x16x16 .f32) :
    out0_C_2 c i a2 h2 a3 h3 a4 h4 a5 h5 a6 h6 a7 h7 hc0 hc1 x0 x1 xs0 xs1 = k0_pay4 x0 xs0 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S8x16x16) _ hz3]
  simp only [View.readAt_eq_ld, h2.read_unread, h3.read_unread, h6.read_unread, h7.read_unread, View.ld_unit_zero (S := S8x2048) hz2, View.ld_unit_zero (S := S8x16x16) hz3]

theorem outT (c : Dev nD) (i : grid0.Coords) (a2 : Memref sig .tc .vmem S8x2048 .f32) (h2 : a2.IsWhole) (a3 : Memref sig .tc .vmem S8x2048 .f32) (h3 : a3.IsWhole) (a4 : Memref sig .tc .vmem S8x16x16 .f32) (h4 : a4.IsWhole) (a5 : Memref sig .tc .vmem S8x16x16 .f32) (h5 : a5.IsWhole) (a6 : Memref sig .tc .vmem S8x16x16 .f32) (h6 : a6.IsWhole) (a7 : Memref sig .tc .vmem S8x16x16 .f32) (h7 : a7.IsWhole) (hc0 : ¬cond0_0 i) (hc1 : cond0_1 i)
    (x0 x1 : Vec F S8x2048 .f32) (xs0 xs1 : Vec F S8x16x16 .f32) :
    out0_C_3 c i a2 h2 a3 h3 a4 h4 a5 h5 a6 h6 a7 h7 hc0 hc1 x0 x1 xs0 xs1 = k0_pay1 x1 xs1 := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz3, View.readCov_unit_zero (S := S8x16x16) _ hz3]
  simp only [View.readAt_eq_ld, h2.read_unread, h3.read_unread, h6.read_unread, h7.read_unread, View.ld_unit_zero (S := S8x2048) hz2, View.ld_unit_zero (S := S8x16x16) hz3]

end Cert.KernelIdeal.Pieces

end
-- ==== Proof.KernelAcc.lean ====
/-
  The two running tables, point by point.

  The grid has 6 · 128 points; point n works on rows 8·(n / 128) … + 7 and on pixel tile n % 128.  The first table after
  point n is: at a first tile (n % 128 = 0) the tile's counts added to zeros, otherwise the tile's counts added to the
  table after point n − 1; the second table likewise, from the second input.  What the frame's run says the scratch
  buffers hold after each point is these tables (by induction on the point), and at a last tile (n % 128 = 127) the two
  output buffers hold them too.
-/
import proofs.«172190_j80625126080915_2_alg».proof.Proof.KernelPieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-! ## One point, by its kind -/

/-- A first tile leaves each table at the tile's counts added to zeros. -/
theorem at_first (c : Dev nD) (t : Fin cfg0.N) (h0 : t.val % 128 = 0) (h1 : ¬t.val % 128 = 127) :
    (outsAt0 m c t.val t.isLt).2.2.1 = k0_pay4 (iblk m c 0 t) (k0_pay2 (F := F))
    ∧ (outsAt0 m c t.val t.isLt).2.2.2 = k0_pay1 (iblk m c 1 t) (k0_pay3 (F := F)) := by
  rw [outsAt0_A m c t h0 h1]
  exact ⟨firstP c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    firstT c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

/-- A middle tile adds the tile's counts to what the point before left. -/
theorem at_mid (c : Dev nD) (t : Fin cfg0.N) (h0 : ¬t.val % 128 = 0) (h1 : ¬t.val % 128 = 127) :
    (outsAt0 m c t.val t.isLt).2.2.1 = k0_pay4 (iblk m c 0 t) (outsAt0 m c (t.val - 1) (Nat.lt_of_le_of_lt (Nat.sub_le _ _) t.isLt)).2.2.1
    ∧ (outsAt0 m c t.val t.isLt).2.2.2 = k0_pay1 (iblk m c 1 t) (outsAt0 m c (t.val - 1) (Nat.lt_of_le_of_lt (Nat.sub_le _ _) t.isLt)).2.2.2 := by
  rw [outsAt0_B m c t h0 h1]
  exact ⟨midP c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    midT c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-- A last tile does the same, and leaves the same two tables in the output buffers. -/
theorem at_last (c : Dev nD) (t : Fin cfg0.N) (h0 : ¬t.val % 128 = 0) (h1 : t.val % 128 = 127) :
    ((outsAt0 m c t.val t.isLt).2.2.1 = k0_pay4 (iblk m c 0 t) (outsAt0 m c (t.val - 1) (Nat.lt_of_le_of_lt (Nat.sub_le _ _) t.isLt)).2.2.1
    ∧ (outsAt0 m c t.val t.isLt).2.2.2 = k0_pay1 (iblk m c 1 t) (outsAt0 m c (t.val - 1) (Nat.lt_of_le_of_lt (Nat.sub_le _ _) t.isLt)).2.2.2)
    ∧ ((outsAt0 m c t.val t.isLt).1 = k0_pay4 (iblk m c 0 t) (outsAt0 m c (t.val - 1) (Nat.lt_of_le_of_lt (Nat.sub_le _ _) t.isLt)).2.2.1
    ∧ (outsAt0 m c t.val t.isLt).2.1 = k0_pay1 (iblk m c 1 t) (outsAt0 m c (t.val - 1) (Nat.lt_of_le_of_lt (Nat.sub_le _ _) t.isLt)).2.2.2) := by
  rw [outsAt0_C m c t h0 h1]
  exact ⟨⟨lastP c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    lastT c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩,
    ⟨outP c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    outT c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩⟩

/-! ## The tables -/

/-- The first input's table after point n. -/
def runP (c : Dev nD) : (n : ℕ) → n < cfg0.N → Vec F S8x16x16 .f32
  | 0, h => k0_pay4 (iblk m c 0 ⟨0, h⟩) (k0_pay2 (F := F))
  | n + 1, h =>
    if (n + 1) % 128 = 0 then k0_pay4 (iblk m c 0 ⟨n + 1, h⟩) (k0_pay2 (F := F))
    else k0_pay4 (iblk m c 0 ⟨n + 1, h⟩) (runP c n (Nat.lt_of_succ_lt h))

/-- The second input's table after point n. -/
def runT (c : Dev nD) : (n : ℕ) → n < cfg0.N → Vec F S8x16x16 .f32
  | 0, h => k0_pay1 (iblk m c 1 ⟨0, h⟩) (k0_pay3 (F := F))
  | n + 1, h =>
    if (n + 1) % 128 = 0 then k0_pay1 (iblk m c 1 ⟨n + 1, h⟩) (k0_pay3 (F := F))
    else k0_pay1 (iblk m c 1 ⟨n + 1, h⟩) (runT c n (Nat.lt_of_succ_lt h))

theorem runP_zero (c : Dev nD) (h : 0 < cfg0.N) :
    runP m c 0 h = k0_pay4 (iblk m c 0 ⟨0, h⟩) (k0_pay2 (F := F)) := by rw [runP]
theorem runT_zero (c : Dev nD) (h : 0 < cfg0.N) :
    runT m c 0 h = k0_pay1 (iblk m c 1 ⟨0, h⟩) (k0_pay3 (F := F)) := by rw [runT]
theorem runP_first (c : Dev nD) (n : ℕ) (h : n + 1 < cfg0.N) (h0 : (n + 1) % 128 = 0) :
    runP m c (n + 1) h = k0_pay4 (iblk m c 0 ⟨n + 1, h⟩) (k0_pay2 (F := F)) := by
  rw [runP, if_pos h0]
theorem runP_next (c : Dev nD) (n : ℕ) (h : n + 1 < cfg0.N) (h0 : ¬(n + 1) % 128 = 0) :
    runP m c (n + 1) h = k0_pay4 (iblk m c 0 ⟨n + 1, h⟩) (runP m c n (Nat.lt_of_succ_lt h)) := by
  rw [runP, if_neg h0]
theorem runT_first (c : Dev nD) (n : ℕ) (h : n + 1 < cfg0.N) (h0 : (n + 1) % 128 = 0) :
    runT m c (n + 1) h = k0_pay1 (iblk m c 1 ⟨n + 1, h⟩) (k0_pay3 (F := F)) := by
  rw [runT, if_pos h0]
theorem runT_next (c : Dev nD) (n : ℕ) (h : n + 1 < cfg0.N) (h0 : ¬(n + 1) % 128 = 0) :
    runT m c (n + 1) h = k0_pay1 (iblk m c 1 ⟨n + 1, h⟩) (runT m c n (Nat.lt_of_succ_lt h)) := by
  rw [runT, if_neg h0]

/-- After every point the scratch buffers hold the two tables. -/
theorem scratch_eq (c : Dev nD) : ∀ (n : ℕ) (h : n < cfg0.N),
    (outsAt0 m c n h).2.2.1 = runP m c n h ∧ (outsAt0 m c n h).2.2.2 = runT m c n h
  | 0, h => by
    have e := at_first m c ⟨0, h⟩ (Nat.zero_mod _) (by dsimp only; omega)
    rw [runP_zero, runT_zero]
    exact e
  | n + 1, h => by
    have ih := scratch_eq c n (Nat.lt_of_succ_lt h)
    by_cases h0 : (n + 1) % 128 = 0
    · have e := at_first m c ⟨n + 1, h⟩ h0 (by dsimp only; omega)
      rw [runP_first m c n h h0, runT_first m c n h h0]
      exact e
    · rw [runP_next m c n h h0, runT_next m c n h h0]
      by_cases h1 : (n + 1) % 128 = 127
      · have e := (at_last m c ⟨n + 1, h⟩ h0 h1).1
        exact ⟨e.1.trans (congrArg (k0_pay4 (iblk m c 0 ⟨n + 1, h⟩)) ih.1),
          e.2.trans (congrArg (k0_pay1 (iblk m c 1 ⟨n + 1, h⟩)) ih.2)⟩
      · have e := at_mid m c ⟨n + 1, h⟩ h0 h1
        exact ⟨e.1.trans (congrArg (k0_pay4 (iblk m c 0 ⟨n + 1, h⟩)) ih.1),
          e.2.trans (congrArg (k0_pay1 (iblk m c 1 ⟨n + 1, h⟩)) ih.2)⟩

/-- After a last tile the two output buffers hold the two tables as well. -/
theorem out_eq (c : Dev nD) : ∀ (n : ℕ) (h : n < cfg0.N), n % 128 = 127 →
    (outsAt0 m c n h).1 = runP m c n h ∧ (outsAt0 m c n h).2.1 = runT m c n h
  | 0, h, h1 => by omega
  | n + 1, h, h1 => by
    have ih := scratch_eq m c n (Nat.lt_of_succ_lt h)
    have h0 : ¬(n + 1) % 128 = 0 := by omega
    have e := (at_last m c ⟨n + 1, h⟩ h0 h1).2
    rw [runP_next m c n h h0, runT_next m c n h h0]
    exact ⟨e.1.trans (congrArg (k0_pay4 (iblk m c 0 ⟨n + 1, h⟩)) ih.1),
      e.2.trans (congrArg (k0_pay1 (iblk m c 1 ⟨n + 1, h⟩)) ih.2)⟩

end Cert.KernelIdeal.Acc

end
-- ==== Proof.KernelBlocks.lean ====
/-
  Where the blocks sit.

  Point t of the 6 × 128 grid reads, from each [48, 262144] input, the block of rows 8·(t / 128) … + 7 and pixels
  2048·(t % 128) … + 2047, and, when it is a last tile, writes back the block of rows 8·(t / 128) … + 7 of each
  [48, 16, 16] output.  The six last tiles (t % 128 = 127) cover each output array.
-/
import proofs.«172190_j80625126080915_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided over the grid. -/
theorem idx_in : ∀ t : Fin cfg0.N,
    win0_0.index t (0 : Fin 2) = t.val / 128 ∧ win0_0.index t (1 : Fin 2) = t.val % 128
    ∧ win0_1.index t (0 : Fin 2) = t.val / 128 ∧ win0_1.index t (1 : Fin 2) = t.val % 128 :=
  (by decide +kernel : ∀ t : Fin grid0.N, _)

theorem idx_out : ∀ t : Fin cfg0.N,
    win0_2.index t (0 : Fin 3) = t.val / 128 ∧ win0_2.index t (1 : Fin 3) = 0 ∧ win0_2.index t (2 : Fin 3) = 0
    ∧ win0_3.index t (0 : Fin 3) = t.val / 128 ∧ win0_3.index t (1 : Fin 3) = 0 ∧ win0_3.index t (2 : Fin 3) = 0 :=
  (by decide +kernel : ∀ t : Fin grid0.N, _)

theorem lt_N (t : Fin cfg0.N) : t.val < 768 := lt_of_lt_of_eq t.isLt (show cfg0.N = 768 from N_0)

/-- The first input's block at point t, read at (b, p): row 8·(t / 128) + b, pixel 2048·(t % 128) + p of the array. -/
theorem iblk0_apply (c : Dev nD) (t : Fin cfg0.N) (b : Fin 8) (p : Fin 2048) :
    (iblk m c 0 t : Vec F S8x2048 .f32) (ix2 b p)
      = V m c main_v0 (ix2 (⟨8 * (t.val / 128) + b.val, by have := lt_N t; omega⟩ : Fin 48)
          (⟨2048 * (t.val % 128) + p.val, by omega⟩ : Fin 262144)) := by
  obtain ⟨e0, e1, -, -⟩ := idx_in t
  unfold iblk
  rw [View.read_apply]
  show V m c main_v0 _ = V m c main_v0 _
  congr 1
  funext a
  apply Fin.ext
  match a with
  | ⟨0, _⟩ => show win0_0.index t (0 : Fin 2) * 8 + 1 * b.val = 8 * (t.val / 128) + b.val; rw [e0]; omega
  | ⟨1, _⟩ => show win0_0.index t (1 : Fin 2) * 2048 + 1 * p.val = 2048 * (t.val % 128) + p.val; rw [e1]; omega

/-- The second input's block likewise. -/
theorem iblk1_apply (c : Dev nD) (t : Fin cfg0.N) (b : Fin 8) (p : Fin 2048) :
    (iblk m c 1 t : Vec F S8x2048 .f32) (ix2 b p)
      = V m c main_v1 (ix2 (⟨8 * (t.val / 128) + b.val, by have := lt_N t; omega⟩ : Fin 48)
          (⟨2048 * (t.val % 128) + p.val, by omega⟩ : Fin 262144)) := by
  obtain ⟨-, -, e0, e1⟩ := idx_in t
  unfold iblk
  rw [View.read_apply]
  show V m c main_v1 _ = V m c main_v1 _
  congr 1
  funext a
  apply Fin.ext
  match a with
  | ⟨0, _⟩ => show win0_1.index t (0 : Fin 2) * 8 + 1 * b.val = 8 * (t.val / 128) + b.val; rw [e0]; omega
  | ⟨1, _⟩ => show win0_1.index t (1 : Fin 2) * 2048 + 1 * p.val = 2048 * (t.val % 128) + p.val; rw [e1]; omega

/-- An index of the first output array is in point t's block iff each coordinate is in the block's range. -/
theorem mem_blk2 (t : Fin cfg0.N) (i : S48x16x16.Idx) :
    i ∈ ((cfg0.win 2).blk t).view.set ↔ ∀ a : Fin 3, win0_2.index t a * S8x16x16.size a ≤ (i a).val ∧ (i a).val < win0_2.index t a * S8x16x16.size a + S8x16x16.size a := by
  show i ∈ ((View.whole main_v2_0).slice (win0_2.rect t)).set ↔ _
  rw [View.set_slice_whole, Rect.mem_set_unit]
  exact Iff.rfl

theorem mem_blk3 (t : Fin cfg0.N) (i : S48x16x16.Idx) :
    i ∈ ((cfg0.win 3).blk t).view.set ↔ ∀ a : Fin 3, win0_3.index t a * S8x16x16.size a ≤ (i a).val ∧ (i a).val < win0_3.index t a * S8x16x16.size a + S8x16x16.size a := by
  show i ∈ ((View.whole main_v2_1).slice (win0_3.rect t)).set ↔ _
  rw [View.set_slice_whole, Rect.mem_set_unit]
  exact Iff.rfl

/-- The last tile of a row group: the point that writes row r's block back. -/
def lastOf (r : ℕ) (hr : r < 48) : Fin cfg0.N :=
  ⟨128 * (r / 8) + 127, by rw [show cfg0.N = 768 from N_0]; omega⟩

/-- Every index of the first output array is in the block of the last tile of its row group. -/
theorem cover2 (i : S48x16x16.Idx) :
    ∃ t : Fin cfg0.N, (cfg0.win 2).flush t = true ∧ i ∈ ((cfg0.win 2).blk t).view.set := by
  have h0 : (i 0).val < 48 := (i 0).isLt
  have h1 : (i 1).val < 16 := (i 1).isLt
  have h2 : (i 2).val < 16 := (i 2).isLt
  refine ⟨lastOf (i 0).val h0, (flush0_2 _).mpr (by show (128 * ((i 0).val / 8) + 127) % 128 = 127; omega), ?_⟩
  rw [mem_blk2]
  obtain ⟨e0, e1, e2, -, -, -⟩ := idx_out (lastOf (i 0).val h0)
  have ev : (lastOf (i 0).val h0).val = 128 * ((i 0).val / 8) + 127 := rfl
  intro a
  match a with
  | ⟨0, _⟩ => show win0_2.index (lastOf (i 0).val h0) (0 : Fin 3) * 8 ≤ (i 0).val ∧ (i 0).val < win0_2.index (lastOf (i 0).val h0) (0 : Fin 3) * 8 + 8; rw [e0, ev]; omega
  | ⟨1, _⟩ => show win0_2.index (lastOf (i 0).val h0) (1 : Fin 3) * 16 ≤ (i 1).val ∧ (i 1).val < win0_2.index (lastOf (i 0).val h0) (1 : Fin 3) * 16 + 16; rw [e1]; omega
  | ⟨2, _⟩ => show win0_2.index (lastOf (i 0).val h0) (2 : Fin 3) * 16 ≤ (i 2).val ∧ (i 2).val < win0_2.index (lastOf (i 0).val h0) (2 : Fin 3) * 16 + 16; rw [e2]; omega

theorem cover3 (i : S48x16x16.Idx) :
    ∃ t : Fin cfg0.N, (cfg0.win 3).flush t = true ∧ i ∈ ((cfg0.win 3).blk t).view.set := by
  have h0 : (i 0).val < 48 := (i 0).isLt
  have h1 : (i 1).val < 16 := (i 1).isLt
  have h2 : (i 2).val < 16 := (i 2).isLt
  refine ⟨lastOf (i 0).val h0, (flush0_3 _).mpr (by show (128 * ((i 0).val / 8) + 127) % 128 = 127; omega), ?_⟩
  rw [mem_blk3]
  obtain ⟨-, -, -, e0, e1, e2⟩ := idx_out (lastOf (i 0).val h0)
  have ev : (lastOf (i 0).val h0).val = 128 * ((i 0).val / 8) + 127 := rfl
  intro a
  match a with
  | ⟨0, _⟩ => show win0_3.index (lastOf (i 0).val h0) (0 : Fin 3) * 8 ≤ (i 0).val ∧ (i 0).val < win0_3.index (lastOf (i 0).val h0) (0 : Fin 3) * 8 + 8; rw [e0, ev]; omega
  | ⟨1, _⟩ => show win0_3.index (lastOf (i 0).val h0) (1 : Fin 3) * 16 ≤ (i 1).val ∧ (i 1).val < win0_3.index (lastOf (i 0).val h0) (1 : Fin 3) * 16 + 16; rw [e1]; omega
  | ⟨2, _⟩ => show win0_3.index (lastOf (i 0).val h0) (2 : Fin 3) * 16 ≤ (i 2).val ∧ (i 2).val < win0_3.index (lastOf (i 0).val h0) (2 : Fin 3) * 16 + 16; rw [e2]; omega

/-- Where point t's output block sits, coordinate by coordinate. -/
theorem emb2 (t : Fin cfg0.N) (j : S8x16x16.Idx) :
    (((cfg0.win 2).blk t).view.emb j 0).val = 8 * (t.val / 128) + (j 0).val
    ∧ (((cfg0.win 2).blk t).view.emb j 1).val = (j 1).val ∧ (((cfg0.win 2).blk t).view.emb j 2).val = (j 2).val := by
  obtain ⟨e0, e1, e2, -, -, -⟩ := idx_out t
  refine ⟨?_, ?_, ?_⟩
  · show win0_2.index t (0 : Fin 3) * 8 + 1 * (j 0).val = _; rw [e0]; omega
  · show win0_2.index t (1 : Fin 3) * 16 + 1 * (j 1).val = _; rw [e1]; omega
  · show win0_2.index t (2 : Fin 3) * 16 + 1 * (j 2).val = _; rw [e2]; omega

theorem emb3 (t : Fin cfg0.N) (j : S8x16x16.Idx) :
    (((cfg0.win 3).blk t).view.emb j 0).val = 8 * (t.val / 128) + (j 0).val
    ∧ (((cfg0.win 3).blk t).view.emb j 1).val = (j 1).val ∧ (((cfg0.win 3).blk t).view.emb j 2).val = (j 2).val := by
  obtain ⟨-, -, -, e0, e1, e2⟩ := idx_out t
  refine ⟨?_, ?_, ?_⟩
  · show win0_3.index t (0 : Fin 3) * 8 + 1 * (j 0).val = _; rw [e0]; omega
  · show win0_3.index t (1 : Fin 3) * 16 + 1 * (j 1).val = _; rw [e1]; omega
  · show win0_3.index t (2 : Fin 3) * 16 + 1 * (j 2).val = _; rw [e2]; omega

end Cert.KernelIdeal.Blocks

end
-- ==== Proof.HistSpec.lean ====
/-
  The histogram both programs compute, as one function of a [48, 262144] array of pixel values.

  A pixel value x falls into the bin  fptosi(min(255, max(0, 255·x)))  (multiplied by 255, clipped to [0, 255] and rounded
  toward zero): a 32-bit word that is one of 0 … 255 for every extended real x.  The histogram of row r counts, for each
  bin k, the pixels of the row that fall into it; the counts are extended reals (sums of zeros and ones).  The kernel lays
  the 256 counts of a row out as a 16 × 16 table (bin k at (k / 16, k % 16)); the reference lays all 48 · 256 counts out
  flat and both reshape to [16, 3, 256], where entry (a, c, k) is the count of row 3a + c and bin k.
-/
import Idealize.ShloMosaic.PureOps.Ideal
import Idealize.ShloMosaic.Lib.ValueIdx

noncomputable section

open scoped BigOperators

namespace Cert.Hist

open Idealize.ShloMosaic Idealize.ShloMosaic.ValueIdx

/-- The bin of a pixel value: 255·x clipped to [0, 255], rounded toward zero, as a 32-bit word. -/
def binOf (x : EReal) : BitVec 32 :=
  Ideal.fptosi 32 (min (Ideal.ofBits .f32 0x437F0000#32) (max (Ideal.ofBits .f32 0x00000000#32) (x * Ideal.ofBits .f32 0x437F0000#32)))

/-- One where the word is the number k, zero elsewhere. -/
def ind (v : BitVec 32) (k : ℕ) : EReal := if v.toNat = k then 1 else 0

/-- How many pixels of row r of a [48, 262144] array fall into bin k. -/
def count (X : (⟨2, ![48, 262144]⟩ : Shape).Idx → EReal) (r : Fin 48) (k : ℕ) : EReal :=
  ∑ q : Fin 262144, ind (binOf (X (ix2 r q))) k

/-- The counts as the kernel lays them out, [48, 16, 16]: bin 16·h + l of row r at (r, h, l). -/
def table (X : (⟨2, ![48, 262144]⟩ : Shape).Idx → EReal) : (⟨3, ![48, 16, 16]⟩ : Shape).Idx → EReal :=
  fun j => count X (j 0) (16 * (j 1).val + (j 2).val)

/-- The counts as both programs hand them to the loss, [16, 3, 256]: bin k of row 3a + c at (a, c, k). -/
def hist (X : (⟨2, ![48, 262144]⟩ : Shape).Idx → EReal) : (⟨3, ![16, 3, 256]⟩ : Shape).Idx → EReal :=
  fun i => count X ⟨(i 0).val * 3 + (i 1).val, by
    have h0 : (i 0).val < 16 := (i 0).isLt; have h1 : (i 1).val < 3 := (i 1).isLt; omega⟩ (i 2).val

end Cert.Hist

end
-- ==== Proof.HistConsts.lean ====
/-
  The float literals the two programs spell, as the real numbers their bit patterns denote: 0, 1, 255.
-/
import Idealize.ShloMosaic.PureOps.Ideal

noncomputable section

namespace Cert.Hist

open Idealize.ShloMosaic

/-- The pattern of +0.0 denotes 0. -/
theorem lit_zero : Ideal.ofBits .f32 0x00000000#32 = 0 := by
  simp [Ideal.ofBits, Ideal.ieee]

/-- The pattern of 1.0 denotes 1. -/
theorem lit_one : Ideal.ofBits .f32 0x3F800000#32 = 1 := by
  simp [Ideal.ofBits, Ideal.ieee, -EReal.coe_mul]; norm_num

/-- The pattern of 255.0 denotes 255. -/
theorem lit_255 : Ideal.ofBits .f32 0x437F0000#32 = ((255 : ℝ) : EReal) := by
  simp [Ideal.ofBits, Ideal.ieee, -EReal.coe_mul]; norm_num

end Cert.Hist

end
-- ==== Proof.HistBin.lean ====
/-
  Elementary facts about the bin of a pixel value and about the one-hot rows the kernel multiplies.

  * The bin of every extended real is one of 0 … 255: the value is clipped to [0, 255] before it is rounded.
  * A bin v below 256 splits as v = 16·(v / 16) + (v % 16); the indicator of "v / 16 = h" times the indicator of
    "v % 16 = l" is the indicator of "v = 16·h + l".
  * A sum over 262144 = 128 · 2048 pixels is the sum over 128 tiles of the sums over the 2048 pixels of each tile.
-/
import proofs.«172190_j80625126080915_2_alg».proof.Proof.HistSpec
import proofs.«172190_j80625126080915_2_alg».proof.Proof.HistConsts

noncomputable section

open scoped BigOperators

namespace Cert.Hist

open Idealize.ShloMosaic Idealize.ShloMosaic.ValueIdx

/-- Rounding a value between 0 and 255 toward zero gives a word below 256: the value is a real number r with
    0 ≤ r ≤ 255, its floor is an integer between 0 and 255, and the clamp to the 32-bit signed range does nothing. -/
theorem fptosi_lt_of_mem (y : EReal) (h0 : 0 ≤ y) (h1 : y ≤ ((255 : ℝ) : EReal)) :
    (Ideal.fptosi 32 y).toNat < 256 := by
  induction y using EReal.rec with
  | bot => exact absurd h0 (by simp)
  | top => exact absurd h1 (by simp)
  | coe r =>
    have hr0 : (0 : ℝ) ≤ r := by exact_mod_cast h0
    have hr1 : r ≤ 255 := by exact_mod_cast h1
    have hf0 : 0 ≤ ⌊r⌋ := Int.floor_nonneg.mpr hr0
    have hf1 : ⌊r⌋ < 256 := Int.floor_lt.mpr (by push_cast; linarith)
    rw [Ideal.fptosi, Ideal.toIntClamped_coe, if_pos hr0, BitVec.toNat_ofInt]
    have e : max (-((2 ^ (32 - 1) : ℕ) : ℤ)) (min (((2 ^ (32 - 1) : ℕ) : ℤ) - 1) ⌊r⌋) = ⌊r⌋ := by
      norm_num
      omega
    rw [e]
    omega

/-- The bin of any pixel value, finite or not, is below 256. -/
theorem binOf_lt (x : EReal) : (binOf x).toNat < 256 := by
  unfold binOf
  rw [lit_255, lit_zero]
  refine fptosi_lt_of_mem _ (le_min ?_ (le_max_left _ _)) (min_le_left _ _)
  exact_mod_cast (by norm_num : (0 : ℝ) ≤ 255)

/-- One entry of a one-hot row: the comparison "word w is the number k" as a bit, widened to 32 bits and read as a
    signed integer, hence the real number 1 or 0. -/
def hot (w : BitVec 32) (k : Fin 16) : EReal :=
  FloatOps.sitofp (F := Ideal) .f32 ((IntOp.cmpi .eq w (BitVec.ofNat 32 k.val)).setWidth 32)

/-- The entry is 1 exactly where the word, read as a natural number, is k. -/
theorem hot_eq (w : BitVec 32) (k : Fin 16) : hot w k = if w.toNat = k.val then 1 else 0 := by
  have hk : k.val < 16 := k.isLt
  unfold hot
  show ((((IntOp.cmpi .eq w (BitVec.ofNat 32 k.val)).setWidth 32).toInt : ℝ) : EReal) = _
  by_cases hw : w.toNat = k.val
  · have e : w = BitVec.ofNat 32 k.val := by
      apply BitVec.eq_of_toNat_eq
      rw [BitVec.toNat_ofNat, hw]
      omega
    rw [if_pos hw, ← e]
    simp [IntOp.cmpi]
  · have e : ¬ w = BitVec.ofNat 32 k.val := by
      intro e
      apply hw
      rw [e, BitVec.toNat_ofNat]
      omega
    have eb : (w == BitVec.ofNat 32 k.val) = false := by simpa using e
    rw [if_neg hw]
    simp [IntOp.cmpi, eb]

/-- For a word below 256 the arithmetic shift right by four is the quotient by 16 (the sign bit is clear). -/
theorem shrsi4_toNat (v : BitVec 32) (hv : v.toNat < 256) : (IntOp.shrsi .vector v 4#32).toNat = v.toNat / 16 := by
  have hm : v.msb = false := by
    rw [BitVec.msb_eq_false_iff_two_mul_lt]
    omega
  unfold IntOp.shrsi
  rw [if_pos (by decide)]
  show (v.sshiftRight 4).toNat = _
  rw [BitVec.sshiftRight_eq_of_msb_false hm, BitVec.toNat_ushiftRight, Nat.shiftRight_eq_div_pow]

/-- The low four bits of a word are its remainder by 16. -/
theorem andi15_toNat (v : BitVec 32) : (IntOp.andi v 15#32).toNat = v.toNat % 16 := by
  unfold IntOp.andi
  rw [BitVec.toNat_and]
  exact Nat.and_two_pow_sub_one_eq_mod v.toNat 4

/-- The two one-hot entries multiply to the indicator of the bin: v / 16 = h and v % 16 = l together say v = 16·h + l. -/
theorem hot_mul (v : BitVec 32) (hv : v.toNat < 256) (h l : Fin 16) :
    hot (IntOp.shrsi .vector v 4#32) h * hot (IntOp.andi v 15#32) l = ind v (16 * h.val + l.val) := by
  have hh : h.val < 16 := h.isLt
  have hl : l.val < 16 := l.isLt
  rw [hot_eq, hot_eq, shrsi4_toNat v hv, andi15_toNat, ind]
  by_cases h1 : v.toNat / 16 = h.val
  · by_cases h2 : v.toNat % 16 = l.val
    · rw [if_pos h1, if_pos h2, if_pos (by omega), one_mul]
    · rw [if_pos h1, if_neg h2, if_neg (by omega), mul_zero]
  · rw [if_neg h1, zero_mul, if_neg (by omega)]

/-- Summing over 262144 pixels tile by tile: pixel q is pixel p of tile t with q = 2048·t + p. -/
theorem sum_tiles (f : Fin 262144 → EReal) :
    ∑ q : Fin 262144, f q = ∑ t : Fin 128, ∑ p : Fin 2048, f ⟨2048 * t.val + p.val, by omega⟩ := by
  calc ∑ q : Fin 262144, f q
      = ∑ x : Fin 128 × Fin 2048, f (finProdFinEquiv x) :=
        (Equiv.sum_comp (finProdFinEquiv (m := 128) (n := 2048)) f).symm
    _ = ∑ t : Fin 128, ∑ p : Fin 2048, f (finProdFinEquiv (t, p)) := Fintype.sum_prod_type _
    _ = _ := by
        refine Finset.sum_congr rfl fun t _ => Finset.sum_congr rfl fun p _ => ?_
        congr 1
        exact Fin.ext ((finProdFinEquiv_apply_val (t, p)).trans (Nat.add_comm _ _))

end Cert.Hist

end
-- ==== Proof.KernelPoint.lean ====
/-
  What the kernel's body computes at one grid point, read one table entry at a time.

  The body takes a tile of 8 rows by 2048 pixels, turns every pixel into its bin (a word below 256), splits the bin into
  its high and low four bits, and forms two arrays of shape [8, 2048, 16]: entry (b, p, h) of the first is 1 where the
  high part of pixel p's bin is h, entry (b, p, l) of the second is 1 where the low part is l.  A batched matrix product
  contracts the pixel axis: entry (b, h, l) of the result is the number of pixels of row b whose bin is 16·h + l.  The
  body adds that to the running table.
-/
import proofs.«172190_j80625126080915_2_alg».proof.Proof.HistBin
import proofs.«172190_j80625126080915_2_alg».proof.Proof.Gen.KernelIdeal.Skeleton
import Idealize.ShloMosaic.Lib.Pipeline.Value
import Idealize.ShloMosaic.PureOps.Ideal.Laws

set_option maxRecDepth 16384

noncomputable section

open scoped BigOperators

namespace Cert.Hist

open Idealize.ShloMosaic Idealize.ShloMosaic.ValueIdx Cert.KernelIdeal Cert.KernelIdeal.Gen

/-- A column of words, given a trailing unit axis and then repeated 16 times along it, reads at (b, p, h) the word of
    pixel (b, p): the repetition ignores h, and (b, p, 0) of [8, 2048, 1] has the row-major position of (b, p). -/
theorem spread_apply (w : IVec S8x2048 32) (hs : S8x2048.ShapeCasts S8x2048x1) (hb : S8x2048x1.Broadcasts S8x2048x16)
    (b : Fin 8) (p : Fin 2048) (h : Fin 16) :
    broadcastTo S8x2048x16 (shapeCast S8x2048x1 w hs) hb (ix3 b p h) = w (ix2 b p) := by
  refine (broadcastTo_apply _ hb (ix3 b p h) (ix3 b p ⟨0, Nat.one_pos⟩) (fun a => match a with
    | ⟨0, _⟩ => rfl
    | ⟨1, _⟩ => rfl
    | ⟨2, _⟩ => rfl)).trans ?_
  exact shapeCast_apply w hs (ix3 b p ⟨0, Nat.one_pos⟩) (ix2 b p) (by
    rw [Shape.rowMajor_val_two, Shape.rowMajor_val_three]
    show b.val * 2048 + p.val = (b.val * 2048 + p.val) * 1 + 0
    omega)

/-- The ramp 0, 1, …, 15 along the last axis, repeated over rows and pixels, reads h at (b, p, h). -/
theorem ramp_apply (hi : S1x1x16.Iotas .tc 32 [2]) (hb : S1x1x16.Broadcasts S8x2048x16)
    (b : Fin 8) (p : Fin 2048) (h : Fin 16) :
    broadcastTo S8x2048x16 (iota .tc S1x1x16 32 [2] hi) hb (ix3 b p h) = BitVec.ofNat 32 h.val := by
  refine (broadcastTo_apply _ hb (ix3 b p h) (ix3 ⟨0, Nat.one_pos⟩ ⟨0, Nat.one_pos⟩ h) (fun a => match a with
    | ⟨0, _⟩ => rfl
    | ⟨1, _⟩ => rfl
    | ⟨2, _⟩ => rfl)).trans ?_
  exact iota_single_apply .tc S1x1x16 32 2 hi _

/-- The bin of every pixel of the tile, as the body computes it: multiply by 255, clip to [0, 255], round toward zero. -/
def binsV (x : FVec Ideal S8x2048 .f32) : IVec S8x2048 32 :=
  fptosi 32 (minimumf (broadcast S8x2048 (Scalar.ofBits .f32 0x437F0000#32))
    (maximumf (broadcast S8x2048 (Scalar.ofBits .f32 0x00000000#32))
      (mulf x (broadcast S8x2048 (Scalar.ofBits .f32 0x437F0000#32)))))

/-- At pixel (b, p) it is the bin of that pixel's value: every step acts on each pixel separately. -/
theorem binsV_apply (x : FVec Ideal S8x2048 .f32) (b : Fin 8) (p : Fin 2048) :
    binsV x (ix2 b p) = binOf (x (ix2 b p)) := rfl

/-- The one-hot array of a column of words: entry (b, p, k) compares the word of pixel (b, p) with k. -/
def onehotV (w : IVec S8x2048 32) : FVec Ideal S8x2048x16 .bf16 :=
  truncf .bf16 (sitofp .f32 (extui 32 (cmpi .eq
    (broadcastTo S8x2048x16 (shapeCast S8x2048x1 w shapeCasts_S8x2048_S8x2048x1) broadcasts_S8x2048x1_S8x2048x16)
    (broadcastTo S8x2048x16 (iota .tc S1x1x16 32 [2] iota_S1x1x16_d2_w32) broadcasts_S1x1x16_S8x2048x16)) natLt_1_32)) bitsLt_bf16_f32

/-- Entry (b, p, k) is the one-hot entry of the word of pixel (b, p) at k. -/
theorem onehotV_apply (w : IVec S8x2048 32) (b : Fin 8) (p : Fin 2048) (k : Fin 16) :
    onehotV w (ix3 b p k) = hot (w (ix2 b p)) k := by
  show FloatOps.sitofp (F := Ideal) .f32 ((IntOp.cmpi .eq
    (broadcastTo S8x2048x16 (shapeCast S8x2048x1 w shapeCasts_S8x2048_S8x2048x1) broadcasts_S8x2048x1_S8x2048x16 (ix3 b p k))
    (broadcastTo S8x2048x16 (iota .tc S1x1x16 32 [2] iota_S1x1x16_d2_w32) broadcasts_S1x1x16_S8x2048x16 (ix3 b p k))).setWidth 32) = _
  rw [spread_apply, ramp_apply]
  rfl

/-- The first running table's new value, with the bins and the two one-hot arrays named. -/
theorem pay4_eq (x : Vec Ideal S8x2048 .f32) (acc : Vec Ideal S8x16x16 .f32) :
    k0_pay4 (F := Ideal) x acc
      = shapeCast S8x16x16 (addf acc (matmul dot_S8x2048x16_S8x2048x16_S8x16x16_1_1_2_2_0_0 none
          (onehotV (shrsi (binsV (shapeCast S8x2048 x shapeCasts_S8x2048_S8x2048)) (broadcast S8x2048 4#32)))
          (onehotV (andi (binsV (shapeCast S8x2048 x shapeCasts_S8x2048_S8x2048)) (broadcast S8x2048 15#32)))
          (constant S8x16x16 .f32 0x00000000#32))) shapeCasts_S8x16x16_S8x16x16 := rfl

/-- The batched product into a zero table, read at (b, h, l): the row b is shared, the pixel axis is summed, the first
    array is read at h and the second at l. -/
theorem mm_apply (L R : FVec Ideal S8x2048x16 .bf16) (b : Fin 8) (h l : Fin 16) :
    matmul dot_S8x2048x16_S8x2048x16_S8x16x16_1_1_2_2_0_0 none L R (constant S8x16x16 .f32 0x00000000#32) (ix3 b h l)
      = ∑ p : Fin 2048, L (ix3 b p h) * R (ix3 b p l) := by
  show FloatOps.matmul dot_S8x2048x16_S8x2048x16_S8x16x16_1_1_2_2_0_0 none L R (constant S8x16x16 .f32 0x00000000#32) (ix3 b h l) = _
  rw [Ideal.matmul_constant_zero_apply,
    ← Equiv.sum_comp (contrEquiv1 dot_S8x2048x16_S8x2048x16_S8x16x16_1_1_2_2_0_0 2048 rfl rfl).symm]
  refine Finset.sum_congr rfl fun c _ => ?_
  have c3 := contrEquiv1_symm_val dot_S8x2048x16_S8x2048x16_S8x16x16_1_1_2_2_0_0 2048 rfl rfl c
  have l3 : dot_S8x2048x16_S8x2048x16_S8x16x16_1_1_2_2_0_0.lhsIdx (ix3 b h l)
      ((contrEquiv1 dot_S8x2048x16_S8x2048x16_S8x16x16_1_1_2_2_0_0 2048 rfl rfl).symm c) = ix3 b c h := by
    funext ax; apply Fin.ext
    match ax with
    | ⟨0, _⟩ => simp [DotDims.lhsIdx, dot_S8x2048x16_S8x2048x16_S8x16x16_1_1_2_2_0_0]; rfl
    | ⟨1, _⟩ => simp [DotDims.lhsIdx, dot_S8x2048x16_S8x2048x16_S8x16x16_1_1_2_2_0_0]; exact c3
    | ⟨2, _⟩ => simp [DotDims.lhsIdx, dot_S8x2048x16_S8x2048x16_S8x16x16_1_1_2_2_0_0]; rfl
  have r3 : dot_S8x2048x16_S8x2048x16_S8x16x16_1_1_2_2_0_0.rhsIdx (ix3 b h l)
      ((contrEquiv1 dot_S8x2048x16_S8x2048x16_S8x16x16_1_1_2_2_0_0 2048 rfl rfl).symm c) = ix3 b c l := by
    funext ax; apply Fin.ext
    match ax with
    | ⟨0, _⟩ => simp [DotDims.rhsIdx, dot_S8x2048x16_S8x2048x16_S8x16x16_1_1_2_2_0_0]; rfl
    | ⟨1, _⟩ => simp [DotDims.rhsIdx, dot_S8x2048x16_S8x2048x16_S8x16x16_1_1_2_2_0_0]; exact c3
    | ⟨2, _⟩ => simp [DotDims.rhsIdx, dot_S8x2048x16_S8x2048x16_S8x16x16_1_1_2_2_0_0]; rfl
  rw [l3, r3]

/-- The new value of the running table at (b, h, l): the old value plus the number of pixels of row b of the tile whose
    bin is 16·h + l. -/
theorem pay4_apply (x : Vec Ideal S8x2048 .f32) (acc : Vec Ideal S8x16x16 .f32) (b : Fin 8) (h l : Fin 16) :
    k0_pay4 (F := Ideal) x acc (ix3 b h l)
      = acc (ix3 b h l) + ∑ p : Fin 2048, ind (binOf (x (ix2 b p))) (16 * h.val + l.val) := by
  rw [pay4_eq]
  refine (congrFun (shapeCast_self _ _) _).trans ?_
  show acc (ix3 b h l) + _ = _
  refine congrArg (acc (ix3 b h l) + ·) ?_
  refine (mm_apply _ _ b h l).trans ?_
  refine Finset.sum_congr rfl fun p _ => ?_
  rw [onehotV_apply, onehotV_apply]
  show hot (IntOp.shrsi .vector (binsV (shapeCast S8x2048 x shapeCasts_S8x2048_S8x2048) (ix2 b p)) 4#32) h
      * hot (IntOp.andi (binsV (shapeCast S8x2048 x shapeCasts_S8x2048_S8x2048) (ix2 b p)) 15#32) l = _
  rw [shapeCast_self, binsV_apply]
  exact hot_mul _ (binOf_lt _) h l

/-- The second running table's new value is the same expression. -/
theorem pay1_eq (x : Vec Ideal S8x2048 .f32) (acc : Vec Ideal S8x16x16 .f32) :
    k0_pay1 (F := Ideal) x acc
      = shapeCast S8x16x16 (addf acc (matmul dot_S8x2048x16_S8x2048x16_S8x16x16_1_1_2_2_0_0 none
          (onehotV (shrsi (binsV (shapeCast S8x2048 x shapeCasts_S8x2048_S8x2048)) (broadcast S8x2048 4#32)))
          (onehotV (andi (binsV (shapeCast S8x2048 x shapeCasts_S8x2048_S8x2048)) (broadcast S8x2048 15#32)))
          (constant S8x16x16 .f32 0x00000000#32))) shapeCasts_S8x16x16_S8x16x16 := rfl

/-- The second running table is updated by the same arithmetic from the second input's tile. -/
theorem pay1_apply (x : Vec Ideal S8x2048 .f32) (acc : Vec Ideal S8x16x16 .f32) (b : Fin 8) (h l : Fin 16) :
    k0_pay1 (F := Ideal) x acc (ix3 b h l)
      = acc (ix3 b h l) + ∑ p : Fin 2048, ind (binOf (x (ix2 b p))) (16 * h.val + l.val) :=
  (congrFun ((pay1_eq x acc).trans (pay4_eq x acc).symm) (ix3 b h l)).trans (pay4_apply x acc b h l)

/-- The fill the first grid step of a row block stores into the first running table is zero everywhere. -/
theorem pay2_apply (j : S8x16x16.Idx) : k0_pay2 (F := Ideal) j = 0 := by
  show shapeCast S8x16x16 (broadcast S8x16x16 (Scalar.ofBits (F := Ideal) .f32 0x00000000#32)) shapeCasts_S8x16x16_S8x16x16 j = 0
  refine (congrFun (shapeCast_self _ _) j).trans ?_
  exact lit_zero

/-- The same for the second running table. -/
theorem pay3_apply (j : S8x16x16.Idx) : k0_pay3 (F := Ideal) j = 0 := by
  show shapeCast S8x16x16 (broadcast S8x16x16 (Scalar.ofBits (F := Ideal) .f32 0x00000000#32)) shapeCasts_S8x16x16_S8x16x16 j = 0
  refine (congrFun (shapeCast_self _ _) j).trans ?_
  exact lit_zero

end Cert.Hist

end
-- ==== Proof.KernelValue.lean ====
/-
  What the kernel's two output arrays hold: the table of counts of each reshaped input.

  At the ideal instance one point adds, at entry (b, h, l) of a running table, the number of pixels of the point's tile of
  row b whose bin is 16·h + l.  So after point n the table holds, for each row of its row group, the count over the tiles
  0 … n % 128 of that row; after a last tile that is the count over all 128 tiles, the whole row.  The last tiles' blocks
  cover the output array, which therefore is the table of counts of the input array.
-/
import proofs.«172190_j80625126080915_2_alg».proof.Proof.KernelAcc
import proofs.«172190_j80625126080915_2_alg».proof.Proof.KernelBlocks
import proofs.«172190_j80625126080915_2_alg».proof.Proof.KernelPoint

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tables

open Cert.KernelIdeal Cert.KernelIdeal.Gen Cert.KernelIdeal.Acc Cert.KernelIdeal.Blocks Cert.Hist

/-- An entry of a [48, 262144] array by natural coordinates (zero outside the array). -/
def pix (X : (⟨2, ![48, 262144]⟩ : Shape).Idx → EReal) (r q : ℕ) : EReal :=
  if h : r < 48 ∧ q < 262144 then X (ix2 ⟨r, h.1⟩ ⟨q, h.2⟩) else 0

theorem pix_eq (X : (⟨2, ![48, 262144]⟩ : Shape).Idx → EReal) (r : Fin 48) (q : Fin 262144) :
    pix X r.val q.val = X (ix2 r q) := dif_pos ⟨r.isLt, q.isLt⟩

/-- The count of bin k over the first T tiles of row r. -/
def part (X : (⟨2, ![48, 262144]⟩ : Shape).Idx → EReal) (r k T : ℕ) : EReal :=
  ∑ t ∈ Finset.range T, ∑ p : Fin 2048, ind (binOf (pix X r (2048 * t + p.val))) k

theorem part_succ (X : (⟨2, ![48, 262144]⟩ : Shape).Idx → EReal) (r k T : ℕ) :
    part X r k (T + 1) = part X r k T + ∑ p : Fin 2048, ind (binOf (pix X r (2048 * T + p.val))) k :=
  Finset.sum_range_succ _ _

theorem part_one (X : (⟨2, ![48, 262144]⟩ : Shape).Idx → EReal) (r k : ℕ) :
    part X r k 1 = ∑ p : Fin 2048, ind (binOf (pix X r (2048 * 0 + p.val))) k := by
  rw [part, Finset.sum_range_one]

/-- All 128 tiles of a row: the row's count. -/
theorem part_all (X : (⟨2, ![48, 262144]⟩ : Shape).Idx → EReal) (r : Fin 48) (k : ℕ) :
    part X r.val k 128 = count X r k := by
  unfold part Cert.Hist.count
  rw [sum_tiles, Finset.sum_range]
  refine Finset.sum_congr rfl fun t _ => Finset.sum_congr rfl fun p _ => ?_
  rw [← pix_eq X r ⟨2048 * t.val + p.val, by omega⟩]

section
variable (m : (ℓ : Loc nD τ sig) → Buf (Elt Ideal) ℓ)

/-- One tile's counts, read off the array: the block's entry (b, p) is the array's entry at row 8·(n / 128) + b and pixel
    2048·(n % 128) + p. -/
theorem tile0 (c : Dev nD) (n : ℕ) (h : n < cfg0.N) (b : Fin 8) (k : ℕ) :
    ∑ p : Fin 2048, ind (binOf ((iblk m c 0 ⟨n, h⟩ : Vec Ideal S8x2048 .f32) (ix2 b p))) k
      = ∑ p : Fin 2048, ind (binOf (pix (V m c main_v0) (8 * (n / 128) + b.val) (2048 * (n % 128) + p.val))) k :=
  Finset.sum_congr rfl fun p _ => by
    rw [iblk0_apply m c ⟨n, h⟩ b p]
    exact congrArg (fun z => ind (binOf z) k) (pix_eq (V m c main_v0) _ _).symm

theorem tile1 (c : Dev nD) (n : ℕ) (h : n < cfg0.N) (b : Fin 8) (k : ℕ) :
    ∑ p : Fin 2048, ind (binOf ((iblk m c 1 ⟨n, h⟩ : Vec Ideal S8x2048 .f32) (ix2 b p))) k
      = ∑ p : Fin 2048, ind (binOf (pix (V m c main_v1) (8 * (n / 128) + b.val) (2048 * (n % 128) + p.val))) k :=
  Finset.sum_congr rfl fun p _ => by
    rw [iblk1_apply m c ⟨n, h⟩ b p]
    exact congrArg (fun z => ind (binOf z) k) (pix_eq (V m c main_v1) _ _).symm

/-- The first table after point n: the counts over tiles 0 … n % 128. -/
theorem runP_apply (c : Dev nD) : ∀ (n : ℕ) (h : n < cfg0.N) (b : Fin 8) (hh l : Fin 16),
    runP m c n h (ix3 b hh l) = part (V m c main_v0) (8 * (n / 128) + b.val) (16 * hh.val + l.val) (n % 128 + 1)
  | 0, h, b, hh, l => by
    rw [runP_zero, pay4_apply, pay2_apply, zero_add, tile0 m c 0 h b, part_one]
  | n + 1, h, b, hh, l => by
    by_cases h0 : (n + 1) % 128 = 0
    · rw [runP_first m c n h h0, pay4_apply, pay2_apply, zero_add, tile0 m c (n + 1) h b, h0, part_one]
    · rw [runP_next m c n h h0, pay4_apply, runP_apply c n (Nat.lt_of_succ_lt h) b hh l, tile0 m c (n + 1) h b]
      have e1 : (n + 1) / 128 = n / 128 := by omega
      have e2 : (n + 1) % 128 = n % 128 + 1 := by omega
      rw [e1, e2]
      exact (part_succ _ _ _ _).symm

/-- The second table likewise. -/
theorem runT_apply (c : Dev nD) : ∀ (n : ℕ) (h : n < cfg0.N) (b : Fin 8) (hh l : Fin 16),
    runT m c n h (ix3 b hh l) = part (V m c main_v1) (8 * (n / 128) + b.val) (16 * hh.val + l.val) (n % 128 + 1)
  | 0, h, b, hh, l => by
    rw [runT_zero, pay1_apply, pay3_apply, zero_add, tile1 m c 0 h b, part_one]
  | n + 1, h, b, hh, l => by
    by_cases h0 : (n + 1) % 128 = 0
    · rw [runT_first m c n h h0, pay1_apply, pay3_apply, zero_add, tile1 m c (n + 1) h b, h0, part_one]
    · rw [runT_next m c n h h0, pay1_apply, runT_apply c n (Nat.lt_of_succ_lt h) b hh l, tile1 m c (n + 1) h b]
      have e1 : (n + 1) / 128 = n / 128 := by omega
      have e2 : (n + 1) % 128 = n % 128 + 1 := by omega
      rw [e1, e2]
      exact (part_succ _ _ _ _).symm

/-- An entry of the table of counts, by the row's number. -/
theorem table_apply (X : (⟨2, ![48, 262144]⟩ : Shape).Idx → EReal) (i : (⟨3, ![48, 16, 16]⟩ : Shape).Idx)
    (r : Fin 48) (k : ℕ) (hr : (i 0).val = r.val) (hk : 16 * (i 1).val + (i 2).val = k) :
    table X i = count X r k := by
  unfold table
  rw [hk]
  exact congrArg (fun z => count X z k) (Fin.ext hr)

/-- What a last tile writes back to the first output is its block of the table of counts. -/
theorem flushed2_eq (c : Dev nD) (t : Fin cfg0.N) (hf : (cfg0.win 2).flush t = true) :
    (dats m 0 c).flushed 2 t = ((cfg0.win 2).blk t).view.read (Elt Ideal) (table (V m c main_v0)) := by
  have h127 : t.val % 128 = 127 := (flush0_2 t).mp hf
  have hr : ∀ b : Fin 8, 8 * (t.val / 128) + b.val < 48 := fun b => by have := lt_N t; omega
  show (cfg0.win 2).cut (grid0.coords t) ((dats m 0 c).after 2 t) = _
  rw [after0_2, (out_eq m c t.val t.isLt h127).1]
  funext j
  have hL : ((cfg0.win 2).cut (grid0.coords t) (runP m c t.val t.isLt)) j = runP m c t.val t.isLt j := rfl
  have hR : ∀ G : (⟨3, ![48, 16, 16]⟩ : Shape).Idx → EReal,
      ((cfg0.win 2).blk t).view.read (Elt Ideal) G j = G (((cfg0.win 2).blk t).view.emb j) := fun _ => rfl
  rw [hL, hR (table (V m c main_v0))]
  clear hL hR
  obtain ⟨b, hh, l, rfl⟩ : ∃ (b : Fin 8) (hh l : Fin 16), j = ix3 b hh l := ⟨j 0, j 1, j 2, eq_ix3 j⟩
  obtain ⟨g0, g1, g2⟩ := emb2 t (ix3 b hh l)
  rw [runP_apply m c t.val t.isLt b hh l, h127,
    table_apply (V m c main_v0) _ ⟨8 * (t.val / 128) + b.val, hr b⟩ (16 * hh.val + l.val) g0 (by rw [g1, g2])]
  exact part_all (V m c main_v0) ⟨8 * (t.val / 128) + b.val, hr b⟩ _

theorem flushed3_eq (c : Dev nD) (t : Fin cfg0.N) (hf : (cfg0.win 3).flush t = true) :
    (dats m 0 c).flushed 3 t = ((cfg0.win 3).blk t).view.read (Elt Ideal) (table (V m c main_v1)) := by
  have h127 : t.val % 128 = 127 := (flush0_3 t).mp hf
  have hr : ∀ b : Fin 8, 8 * (t.val / 128) + b.val < 48 := fun b => by have := lt_N t; omega
  show (cfg0.win 3).cut (grid0.coords t) ((dats m 0 c).after 3 t) = _
  rw [after0_3, (out_eq m c t.val t.isLt h127).2]
  funext j
  have hL : ((cfg0.win 3).cut (grid0.coords t) (runT m c t.val t.isLt)) j = runT m c t.val t.isLt j := rfl
  have hR : ∀ G : (⟨3, ![48, 16, 16]⟩ : Shape).Idx → EReal,
      ((cfg0.win 3).blk t).view.read (Elt Ideal) G j = G (((cfg0.win 3).blk t).view.emb j) := fun _ => rfl
  rw [hL, hR (table (V m c main_v1))]
  clear hL hR
  obtain ⟨b, hh, l, rfl⟩ : ∃ (b : Fin 8) (hh l : Fin 16), j = ix3 b hh l := ⟨j 0, j 1, j 2, eq_ix3 j⟩
  obtain ⟨g0, g1, g2⟩ := emb3 t (ix3 b hh l)
  rw [runT_apply m c t.val t.isLt b hh l, h127,
    table_apply (V m c main_v1) _ ⟨8 * (t.val / 128) + b.val, hr b⟩ (16 * hh.val + l.val) g0 (by rw [g1, g2])]
  exact part_all (V m c main_v1) ⟨8 * (t.val / 128) + b.val, hr b⟩ _

/-- The first output array after the run: the table of counts of the first reshaped input. -/
theorem final2 (c : Dev nD) : (dats m 0 c).arrAt 2 cfg0.N = table (V m c main_v0) :=
  (dats m 0 c).arrAt_eq_of_cover 2 (table (V m c main_v0)) (flushed2_eq m c) cover2

/-- The second output array after the run: the table of counts of the second reshaped input. -/
theorem final3 (c : Dev nD) : (dats m 0 c).arrAt 3 cfg0.N = table (V m c main_v1) :=
  (dats m 0 c).arrAt_eq_of_cover 3 (table (V m c main_v1)) (flushed3_eq m c) cover3

end

end Cert.KernelIdeal.Tables

end
-- ==== Proof.KernelHost.lean ====
/-
  The host lines around the kernel launch.

  Before the launch each [16, 3, 512, 512] input is reshaped to [48, 262144]; after it each [48, 16, 16] output is
  reshaped to [16, 3, 256], divided by 262144, the two are subtracted, the absolute values summed and the sum divided by
  12288.  That last part, from the two [16, 3, 256] histograms on, is the loss both programs share.
-/
import proofs.«172190_j80625126080915_2_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HostSide

open Cert.KernelIdeal Cert.KernelIdeal.Gen

variable {F : FTy → Type} [FloatOps F]
variable (m : (ℓ : Loc nD τ sig) → Buf (Elt F) ℓ) (ρ : Dev nD → PrngReg)

/-- The loss of two [16, 3, 256] histograms: mean over all entries of |Hp / 262144 − Ht / 262144|. -/
def loss (Hp Ht : (⟨S16x3x256, .f32⟩ : BufTy).Contents (Elt F)) : (⟨S_, .f32⟩ : BufTy).Contents (Elt F) :=
  Host.divf
    (Host.reduceAdd
      (Host.absf (subf
        (Host.divf Hp (broadcastInDim S16x3x256 ![] bcast_S_S16x3x256 (constant (F := F) S_ .f32 0x48800000#32)))
        (Host.divf Ht (broadcastInDim S16x3x256 ![] bcast_S_S16x3x256 (constant (F := F) S_ .f32 0x48800000#32)))))
      (constant (F := F) S_ .f32 0x00000000#32) reducesTo_S16x3x256_S_d0_1_2 h_S_)
    (constant (F := F) S_ .f32 0x46400000#32)

/-- The region finds the first input reshaped to [48, 262144]. -/
theorem V_v0 (c : Dev nD) : (V m c main_v0 : S48x262144.Idx → Elt F .f32)
    = shapeCast S48x262144 (m ((c : Thread nD τ).loc main_arg0)) shapeCasts_S16x3x512x512_S48x262144 := by
  show StableHlo.after hostOps0 (fun b => m (c, b)) (Proc.devRef .tc main_v0) = _
  after_results
  rfl

/-- And the second. -/
theorem V_v1 (c : Dev nD) : (V m c main_v1 : S48x262144.Idx → Elt F .f32)
    = shapeCast S48x262144 (m ((c : Thread nD τ).loc main_arg1)) shapeCasts_S16x3x512x512_S48x262144 := by
  show StableHlo.after hostOps0 (fun b => m (c, b)) (Proc.devRef .tc main_v1) = _
  after_results
  rfl

/-- The result buffer after the lines that follow the region: the loss of the two output arrays reshaped. -/
theorem result_eq (c : Dev nD) :
    Pipeline.afterTail₀ cfgs (dats m) 0 (V0 m) [hostOps1] c main_v12
      = loss (shapeCast S16x3x256 ((dats m 0 c).arrAt 2 cfg0.N) shapeCasts_S48x16x16_S16x3x256)
          (shapeCast S16x3x256 ((dats m 0 c).arrAt 3 cfg0.N) shapeCasts_S48x16x16_S16x3x256) := by
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  unfold Pipeline.afterTail₀
  show StableHlo.after hostOps1 _ (Proc.devRef .tc main_v12) = _
  after_results
  rw [e2, e3]
  exact congrArg₂ loss (funext fun i => rfl) (funext fun i => rfl)

/-- The kernel's run, with the result buffer named: the loss of the two output arrays; the arguments unchanged. -/
theorem run_named : θ_run defs (onTc (τ := τ) (main (F := F))) ⟨m, fun _ => 0, ρ⟩ fun r => ∀ c : Dev nD,
      r.2.mem ((c.tc : Thread nD τ).loc main_v12)
        = loss (shapeCast S16x3x256 ((dats m 0 c).arrAt 2 cfg0.N) shapeCasts_S48x16x16_S16x3x256)
            (shapeCast S16x3x256 ((dats m 0 c).arrAt 3 cfg0.N) shapeCasts_S48x16x16_S16x3x256)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.HostSide

end
-- ==== Proof.HistBridge.lean ====
/-
  The kernel's 16 × 16 tables, reshaped, are the histograms the loss reads.

  A reshape keeps every entry at its row-major position.  Entry (a, c, k) of a [16, 3, 256] array sits at position
  (3a + c)·256 + k; in a [48, 16, 16] array that position belongs to (3a + c, k / 16, k % 16).  The table of row 3a + c
  holds there the count of bin 16·(k / 16) + k % 16 = k, which is the histogram's entry (a, c, k).
-/
import proofs.«172190_j80625126080915_2_alg».proof.Proof.HistSpec
import Idealize.ShloMosaic.Lib.Pipeline.Value

noncomputable section

open scoped BigOperators

namespace Cert.Hist

open Idealize.ShloMosaic Idealize.ShloMosaic.ValueIdx

/-- Reshaping the [48, 16, 16] tables to [16, 3, 256] gives the histograms. -/
theorem table_reshape (X : (⟨2, ![48, 262144]⟩ : Shape).Idx → EReal)
    (h : (⟨3, ![48, 16, 16]⟩ : Shape).ShapeCasts (⟨3, ![16, 3, 256]⟩ : Shape)) :
    shapeCast (⟨3, ![16, 3, 256]⟩ : Shape) (table X) h = hist X := by
  funext i
  obtain ⟨a, c, k, rfl⟩ : ∃ (a : Fin 16) (c : Fin 3) (k : Fin 256), i = ix3 a c k := ⟨i 0, i 1, i 2, eq_ix3 i⟩
  have ha : a.val < 16 := a.isLt
  have hc : c.val < 3 := c.isLt
  have hk : k.val < 256 := k.isLt
  refine (shapeCast_apply (table X) h (ix3 a c k)
    (ix3 (⟨a.val * 3 + c.val, by omega⟩ : Fin 48) (⟨k.val / 16, by omega⟩ : Fin 16) (⟨k.val % 16, Nat.mod_lt _ (by decide)⟩ : Fin 16))
    (by rw [Shape.rowMajor_val_three, Shape.rowMajor_val_three]
        show ((a.val * 3 + c.val) * 16 + k.val / 16) * 16 + k.val % 16 = (a.val * 3 + c.val) * 256 + k.val
        omega)).trans ?_
  exact congrArg (count X ⟨a.val * 3 + c.val, by omega⟩) (by omega : 16 * (k.val / 16) + k.val % 16 = k.val)

end Cert.Hist

end
-- ==== Proof.RefHist.lean ====
/-
  The reference program's histogram stage, read as the shared specification.

  The reference adds a one at flat position  bin + 256·row  of a zero array of 48·256 entries, once for every pixel
  of every row, and then views the array as [16, 3, 256].  Here the scatter's landing rule is worked out for its
  dimension numbers (the landing position of update n is the n-th index word read as a signed integer), the index
  word of the pixel at flat position n = 262144·r + q is shown to be  bin(pixel) + 256·r  with a signed value below
  2^31 (so the program's guard against negative indices keeps it unchanged), and the sum of ones over all 48·262144
  updates that land on position (3a + c)·256 + k is re-indexed by (row, pixel): only row 3a + c contributes, and there
  exactly the pixels whose bin is k.  That is the count of row 3a + c and bin k: the specification's histogram.
-/
import proofs.«172190_j80625126080915_2_alg».proof.Proof.HistSpec
import proofs.«172190_j80625126080915_2_alg».proof.Proof.HistConsts
import proofs.«172190_j80625126080915_2_alg».proof.Proof.Gen.ReferenceIdeal.Read
import Idealize.ShloMosaic.Lib.ValueIdx
import Idealize.ShloMosaic.Lib.Pipeline.Value

noncomputable section

open scoped BigOperators

namespace Cert.Hist.Ref

open Cert.ReferenceIdeal Cert.ReferenceIdeal.Gen Idealize.ShloMosaic Idealize.ShloMosaic.TcCoe Idealize.SL.Sem Idealize.ShloMosaic.StableHlo Idealize.ShloMosaic.ValueIdx

/-- The scatter's dimension numbers: a rank-1 operand, one index word per update, no window axes. -/
abbrev dRec : ScatterDims S12288 S12582912x1 S12582912 := scatter_S12288_S12582912x1_S12582912_n_0_0_1

/-- Update n reads its start index at (n, 0) of the index array. -/
theorem siIdx_eq (j : S12582912.Idx) (c : Fin dRec.scatterDimsToOperandDims.length) :
    dRec.siIdx j c = ix2 (j 0) 0 := by
  funext b
  match b with
  | ⟨0, _⟩ => rfl
  | ⟨1, _⟩ =>
    have : c.val = 0 := by have := c.isLt; simp [dRec, scatter_S12288_S12582912x1_S12582912_n_0_0_1] at this; omega
    apply Fin.ext
    simp [ScatterDims.siIdx, dRec, scatter_S12288_S12582912x1_S12582912_n_0_0_1, this]

/-- The start of update n on the operand's only axis is the index word at (n, 0), read signed. -/
theorem start_eq (j : S12582912.Idx) (idx : IVec S12582912x1 32) (a : Fin S12288.rank) :
    dRec.start j idx a = (idx (ix2 (j 0) 0)).toInt := by
  have ha : a ∈ dRec.scatterDimsToOperandDims := by
    have : a = 0 := Subsingleton.elim _ _
    subst this; simp [dRec, scatter_S12288_S12582912x1_S12582912_n_0_0_1]
  unfold ScatterDims.start
  rw [dif_pos ha, siIdx_eq]
  rfl

/-- The operand's only axis is an inserted one: the window coordinate is 0. -/
theorem window_eq (j : S12582912.Idx) (a : Fin S12288.rank) : dRec.window j a = 0 := by
  have : a = 0 := Subsingleton.elim _ _
  subst this
  unfold ScatterDims.window
  rw [dif_neg]
  simp [dRec, scatter_S12288_S12582912x1_S12582912_n_0_0_1, ScatterDims.sKept, Shape.kept]

/-- Update n lands on position f exactly when its index word, read signed, is f. -/
theorem resultIdx_iff (j : S12582912.Idx) (idx : IVec S12582912x1 32) (f : Fin 12288) :
    dRec.resultIdx? j idx = some (ix1 f) ↔ (idx (ix2 (j 0) 0)).toInt = (f.val : Int) := by
  have hs : ∀ a, dRec.start j idx a + (dRec.window j a : ℕ) = (idx (ix2 (j 0) 0)).toInt := by
    intro a; rw [start_eq, window_eq]; simp
  have hf := f.isLt
  unfold ScatterDims.resultIdx?
  constructor
  · intro h
    split at h
    · rename_i hc
      have h1 := Option.some.inj h
      have h0 : (dRec.start j idx 0 + (dRec.window j 0 : ℕ)).toNat = f.val := congrArg Fin.val (congrFun h1 0)
      have hc0 := (hc 0).1
      rw [hs] at h0 hc0
      omega
    · cases h
  · intro h
    have hc : ∀ a : Fin S12288.rank, 0 ≤ dRec.start j idx a + (dRec.window j a : ℕ) ∧ dRec.start j idx a + (dRec.window j a : ℕ) < S12288.size a := by
      intro a; rw [hs]; have : a = 0 := Subsingleton.elim _ _; subst this
      show 0 ≤ _ ∧ _ < ((12288:ℕ):ℤ)
      omega
    rw [dif_pos hc]
    congr 1
    funext a
    match a with
    | ⟨0, _⟩ => apply Fin.ext; show (dRec.start j idx 0 + (dRec.window j 0 : ℕ)).toNat = f.val; rw [hs]; omega

/-- Scaling by 255, clipping between the integers 0 and 255 read as reals, and rounding toward zero is the bin. -/
theorem clip_bin (x : EReal) :
    FloatOps.fptosi (F := Ideal) 32 (FloatOps.minimumf (FloatOps.sitofp .f32 255#32)
      (FloatOps.maximumf (FloatOps.sitofp .f32 0#32) (FloatOps.mulf x (FloatOps.ofBits .f32 0x437F0000#32))))
      = binOf x := by
  have h255 : FloatOps.sitofp (F := Ideal) .f32 255#32 = Ideal.ofBits .f32 0x437F0000#32 := by
    rw [lit_255]
    show ((((255#32 : BitVec 32).toInt : ℝ)) : EReal) = _
    have : (255#32 : BitVec 32).toInt = 255 := by decide
    rw [this]; norm_num
  have h0 : FloatOps.sitofp (F := Ideal) .f32 0#32 = Ideal.ofBits .f32 0x00000000#32 := by
    rw [lit_zero]
    show ((((0#32 : BitVec 32).toInt : ℝ)) : EReal) = _
    have : (0#32 : BitVec 32).toInt = 0 := by decide
    rw [this]; norm_num
  rw [h255, h0]
  rfl

/-- The signed value of bin + 256·row, and that the wrap-around branch of the select is not taken. -/
theorem word_facts (b : BitVec 32) (hb : b.toNat < 256) (r : ℕ) (hr : r < 48) :
    Scalar.select (IntOp.cmpi .slt (IntOp.addi b (IntOp.muli (BitVec.ofNat 32 r) 256#32)) 0#32)
        (IntOp.addi (IntOp.addi b (IntOp.muli (BitVec.ofNat 32 r) 256#32)) 12288#32)
        (IntOp.addi b (IntOp.muli (BitVec.ofNat 32 r) 256#32))
      = b + BitVec.ofNat 32 r * 256#32
    ∧ (b + BitVec.ofNat 32 r * 256#32).toInt = ((b.toNat + 256 * r : ℕ) : ℤ) := by
  have hn : (b + BitVec.ofNat 32 r * 256#32).toNat = b.toNat + 256 * r := by
    rw [BitVec.toNat_add, BitVec.toNat_mul, BitVec.toNat_ofNat]
    show (b.toNat + r % 2 ^ 32 * 256 % 2 ^ 32) % 2 ^ 32 = _
    omega
  have hi : (b + BitVec.ofNat 32 r * 256#32).toInt = ((b.toNat + 256 * r : ℕ) : ℤ) := by
    rw [BitVec.toInt_eq_toNat_of_lt (by rw [hn]; omega), hn]
  refine ⟨?_, hi⟩
  show Scalar.select (BitVec.ofBool ((b + BitVec.ofNat 32 r * 256#32).slt 0#32)) _ _ = _
  have : (b + BitVec.ofNat 32 r * 256#32).slt 0#32 = false := by
    rw [BitVec.slt, hi]; simp; omega
  rw [this]
  exact select_zero _ _

/-- A flat position n < 48·262144 as (row, pixel) = (n / 262144, n % 262144). -/
def rq (n : S12582912.Idx) : S48x262144.Idx :=
  ix2 ⟨(n 0).val / 262144, by have h0 : (n 0).val < 12582912 := (n 0).isLt; omega⟩
      ⟨(n 0).val % 262144, by omega⟩

/-- Flat positions are the pairs (row, pixel). -/
def splitEquiv : S12582912.Idx ≃ Fin 48 × Fin 262144 where
  toFun n := (⟨(n 0).val / 262144, by have h0 : (n 0).val < 12582912 := (n 0).isLt; omega⟩,
              ⟨(n 0).val % 262144, by omega⟩)
  invFun p := ix1 ⟨p.1.val * 262144 + p.2.val, by have h1 := p.1.isLt; have h2 := p.2.isLt; omega⟩
  left_inv n := by
    funext d
    match d with
    | ⟨0, _⟩ =>
      apply Fin.ext
      show (n 0).val / 262144 * 262144 + (n 0).val % 262144 = (n 0).val
      omega
  right_inv p := by
    obtain ⟨r, q⟩ := p
    have h1 := r.isLt; have h2 := q.isLt
    apply Prod.ext
    · apply Fin.ext; show (r.val * 262144 + q.val) / 262144 = r.val; omega
    · apply Fin.ext; show (r.val * 262144 + q.val) % 262144 = q.val; omega

/-- The pair (r, q) sits at flat position 262144·r + q, which splits back into (r, q). -/
theorem rq_symm (r : Fin 48) (q : Fin 262144) : rq (splitEquiv.symm (r, q)) = ix2 r q := by
  have h1 := r.isLt; have h2 := q.isLt
  funext d
  match d with
  | ⟨0, _⟩ => apply Fin.ext; show (r.val * 262144 + q.val) / 262144 = r.val; omega
  | ⟨1, _⟩ => apply Fin.ext; show (r.val * 262144 + q.val) % 262144 = q.val; omega

/-- The row of flat position 262144·r + q is r. -/
theorem row_symm (r : Fin 48) (q : Fin 262144) : ((splitEquiv.symm (r, q)) 0).val / 262144 = r.val := by
  have h1 := r.isLt; have h2 := q.isLt
  show (r.val * 262144 + q.val) / 262144 = r.val; omega

/-- The scatter-add of ones into zeros, at the flat position of (a, c, k), counts the pixels of row 3a + c in bin k,
    when the index word of flat position n is bin + 256·row read signed. -/
theorem scatter_hist (hbin : ∀ x : EReal, (Cert.Hist.binOf x).toNat < 256) (X : S48x262144.Idx → EReal)
    (op : S12288.Idx → EReal) (I : IVec S12582912x1 32) (upd : S12582912.Idx → EReal)
    (hop : ∀ i, op i = 0) (hupd : ∀ n, upd n = 1)
    (hI : ∀ n : S12582912.Idx, (I (ix2 (n 0) 0)).toInt
      = (((binOf (X (rq n))).toNat + 256 * ((n 0).val / 262144) : ℕ) : ℤ))
    (i : S16x3x256.Idx) :
    Ideal.hostScatterAdd dRec op I upd (Cert.ReferenceIdeal.Read.idx_main_v21 i) = hist X i := by
  have ha : (i 0).val < 16 := (i 0).isLt
  have hc : (i 1).val < 3 := (i 1).isLt
  have hk : (i 2).val < 256 := (i 2).isLt
  have hidx : Cert.ReferenceIdeal.Read.idx_main_v21 i
      = ix1 ⟨((i 0).val * 3 + (i 1).val) * 256 + (i 2).val, by omega⟩ := by
    funext d
    match d with
    | ⟨0, _⟩ => rfl
  rw [hidx]
  unfold Ideal.hostScatterAdd
  rw [hop, zero_add, Finset.sum_filter]
  have step1 : ∀ j : S12582912.Idx,
      (if dRec.resultIdx? j I = some (ix1 ⟨((i 0).val * 3 + (i 1).val) * 256 + (i 2).val, by omega⟩) then upd j else 0)
        = if ((j 0).val / 262144 = (i 0).val * 3 + (i 1).val ∧ (binOf (X (rq j))).toNat = (i 2).val)
            then (1 : EReal) else 0 := by
    intro j
    rw [hupd]
    refine if_congr ?_ rfl rfl
    rw [resultIdx_iff, hI]
    have hb := hbin (X (rq j))
    show (((binOf (X (rq j))).toNat + 256 * ((j 0).val / 262144) : ℕ) : ℤ)
        = ((((i 0).val * 3 + (i 1).val) * 256 + (i 2).val : ℕ) : ℤ) ↔ _
    constructor
    · intro h; omega
    · intro h; omega
  rw [Finset.sum_congr rfl (fun j _ => step1 j)]
  rw [← Equiv.sum_comp splitEquiv.symm, Fintype.sum_prod_type]
  rw [Fintype.sum_eq_single (⟨(i 0).val * 3 + (i 1).val, by omega⟩ : Fin 48)]
  · unfold hist count
    refine Finset.sum_congr rfl (fun q _ => ?_)
    rw [rq_symm, row_symm]
    unfold ind
    refine if_congr ?_ rfl rfl
    simp
  · intro r hr
    refine Finset.sum_eq_zero (fun q _ => ?_)
    rw [row_symm]
    rw [if_neg]
    intro h
    exact hr (Fin.ext h.1)

open Cert.ReferenceIdeal.Read

/-- The argument viewed as 48 rows of 262144 pixels. -/
abbrev rows (x : (⟨S16x3x512x512, .f32⟩ : BufTy).Contents (Elt Ideal)) : S48x262144.Idx → EReal :=
  shapeCast S48x262144 x shapeCasts_S16x3x512x512_S48x262144

/-- Row r, pixel q of the row view is the argument's element at the same row-major position. -/
theorem rows_apply (x : (⟨S16x3x512x512, .f32⟩ : BufTy).Contents (Elt Ideal)) (i : S48x262144.Idx) :
    rows x i = x (idx_main_v8 i) :=
  shapeCast_apply x shapeCasts_S16x3x512x512_S48x262144 i (idx_main_v8 i)
    (by rewrite [Shape.rowMajor_val_four, Shape.rowMajor_val_two]
        have h0 : (i 0).val < 48 := (i 0).isLt
        have h1 : (i 1).val < 262144 := (i 1).isLt
        show ((((i 0).val * 262144 + (i 1).val) / 786432 * 3 + ((i 0).val * 262144 + (i 1).val) / 262144 % 3) * 512
              + ((i 0).val * 262144 + (i 1).val) / 512 % 512) * 512 + ((i 0).val * 262144 + (i 1).val) % 512
            = (i 0).val * 262144 + (i 1).val
        omega)

/-- The flattening of [48, 262144] reads flat position n at (n / 262144, n % 262144). -/
theorem idx11_eq (n : S12582912.Idx) : idx_main_v11 n = rq n := by
  funext d
  match d with
  | ⟨0, _⟩ => rfl
  | ⟨1, _⟩ => rfl

/-- Adding a unit axis to the index words does not move them. -/
theorem idx18_eq (n : S12582912.Idx) : idx_main_v18 (ix2 (n 0) 0) = n := by
  funext d
  match d with
  | ⟨0, _⟩ => rfl

section first
variable (x0 : (⟨S16x3x512x512, .f32⟩ : BufTy).Contents (Elt Ideal))

/-- The converted clipped value at a pixel is the pixel's bin. -/
theorem v3_eq (i : S16x3x512x512.Idx) : val_main_v3 (F := Ideal) x0 i = binOf (x0 i) := by
  rw [val_main_v3_apply, val_main_v2_apply, val_main_call0_v4_apply, val_main_call0_v3_apply, val_main_c_0_apply,
    val_main_call0_v2_apply, val_main_call0_v1_apply, val_main_call0_v0_apply, val_main_c_apply, val_main_v1_apply,
    val_main_v0_apply, val_main_cst_apply]
  exact clip_bin (x0 i)

/-- The index word before the guard: bin + 256·row. -/
theorem v11_eq (n : S12582912.Idx) :
    val_main_v11 (F := Ideal) x0 n
      = IntOp.addi (binOf (rows x0 (rq n))) (IntOp.muli (BitVec.ofNat 32 ((n 0).val / 262144)) 256#32) := by
  rw [val_main_v11_apply, val_main_v10_apply, val_main_v8_apply, v3_eq, val_main_v9_apply, val_main_v7_apply,
    val_main_v5_apply, val_main_v4_apply, val_main_v6_apply, val_main_c_1_apply, rows_apply, idx11_eq]
  rfl

/-- The index word the scatter reads for flat position n, as a signed integer. -/
theorem v18_toInt (hbin : ∀ x : EReal, (Cert.Hist.binOf x).toNat < 256) (n : S12582912.Idx) :
    (val_main_v18 (F := Ideal) x0 (ix2 (n 0) 0)).toInt
      = (((binOf (rows x0 (rq n))).toNat + 256 * ((n 0).val / 262144) : ℕ) : ℤ) := by
  have h := word_facts (binOf (rows x0 (rq n))) (hbin _) ((n 0).val / 262144)
    (by have h0 : (n 0).val < 12582912 := (n 0).isLt; omega)
  rw [val_main_v18_apply, idx18_eq, val_main_v17_apply, val_main_v14_apply, val_main_v16_apply, val_main_v13_apply,
    val_main_c_3_apply, val_main_v15_apply, val_main_c_4_apply, v11_eq, h.1]
  exact h.2

end first

/-- With exact arithmetic the scatter-add is: each operand element plus the sum of the updates landing on it. -/
theorem v20_eq (x0 : (⟨S16x3x512x512, .f32⟩ : BufTy).Contents (Elt Ideal)) :
    val_main_v20 (F := Ideal) x0
      = Ideal.hostScatterAdd dRec (val_main_v12 (F := Ideal)) (val_main_v18 (F := Ideal) x0) (val_main_v19 (F := Ideal)) := by
  unfold val_main_v20 Host.scatterAdd
  exact Ideal.hostScatterAdd_def _ _ _ _ _

/-- The reference's histogram of its first argument is the specification's. -/
theorem val_main_v21_eq (hbin : ∀ x : EReal, (Cert.Hist.binOf x).toNat < 256)
    (x0 : (⟨S16x3x512x512, .f32⟩ : BufTy).Contents (Elt Ideal)) :
    val_main_v21 (F := Ideal) x0 = Cert.Hist.hist (shapeCast S48x262144 x0 shapeCasts_S16x3x512x512_S48x262144) := by
  funext i
  rw [val_main_v21_apply, v20_eq]
  exact scatter_hist hbin (rows x0) _ _ _
    (fun j => by rw [val_main_v12_apply, val_main_cst_2_apply]; exact lit_zero)
    (fun j => by rw [val_main_v19_apply, val_main_cst_5_apply]; exact lit_one)
    (v18_toInt x0 hbin) i

/-! The same stages for the second argument. -/

theorem idx32_eq (i : S48x262144.Idx) : idx_main_v32 i = idx_main_v8 i := by
  funext d
  match d with
  | ⟨0, _⟩ => rfl
  | ⟨1, _⟩ => rfl
  | ⟨2, _⟩ => rfl
  | ⟨3, _⟩ => rfl

theorem idx35_eq (n : S12582912.Idx) : idx_main_v35 n = rq n := by
  funext d
  match d with
  | ⟨0, _⟩ => rfl
  | ⟨1, _⟩ => rfl

theorem idx42_eq (n : S12582912.Idx) : idx_main_v42 (ix2 (n 0) 0) = n := by
  funext d
  match d with
  | ⟨0, _⟩ => rfl

theorem idx45_eq (i : S16x3x256.Idx) : idx_main_v45 i = idx_main_v21 i := by
  funext d
  match d with
  | ⟨0, _⟩ => rfl

section second
variable (x1 : (⟨S16x3x512x512, .f32⟩ : BufTy).Contents (Elt Ideal))

theorem v27_eq (i : S16x3x512x512.Idx) : val_main_v27 (F := Ideal) x1 i = binOf (x1 i) := by
  rw [val_main_v27_apply, val_main_v26_apply, val_main_call1_v4_apply, val_main_call1_v3_apply, val_main_c_9_apply,
    val_main_call1_v2_apply, val_main_call1_v1_apply, val_main_call1_v0_apply, val_main_c_8_apply, val_main_v25_apply,
    val_main_v24_apply, val_main_cst_7_apply]
  exact clip_bin (x1 i)

theorem v35_eq (n : S12582912.Idx) :
    val_main_v35 (F := Ideal) x1 n
      = IntOp.addi (binOf (rows x1 (rq n))) (IntOp.muli (BitVec.ofNat 32 ((n 0).val / 262144)) 256#32) := by
  rw [val_main_v35_apply, val_main_v34_apply, val_main_v32_apply, v27_eq, val_main_v33_apply, val_main_v31_apply,
    val_main_v29_apply, val_main_v28_apply, val_main_v30_apply, val_main_c_10_apply, rows_apply, idx35_eq, idx32_eq]
  rfl

theorem v42_toInt (hbin : ∀ x : EReal, (Cert.Hist.binOf x).toNat < 256) (n : S12582912.Idx) :
    (val_main_v42 (F := Ideal) x1 (ix2 (n 0) 0)).toInt
      = (((binOf (rows x1 (rq n))).toNat + 256 * ((n 0).val / 262144) : ℕ) : ℤ) := by
  have h := word_facts (binOf (rows x1 (rq n))) (hbin _) ((n 0).val / 262144)
    (by have h0 : (n 0).val < 12582912 := (n 0).isLt; omega)
  rw [val_main_v42_apply, idx42_eq, val_main_v41_apply, val_main_v38_apply, val_main_v40_apply, val_main_v37_apply,
    val_main_c_12_apply, val_main_v39_apply, val_main_c_13_apply, v35_eq, h.1]
  exact h.2

end second

theorem v44_eq (x1 : (⟨S16x3x512x512, .f32⟩ : BufTy).Contents (Elt Ideal)) :
    val_main_v44 (F := Ideal) x1
      = Ideal.hostScatterAdd dRec (val_main_v36 (F := Ideal)) (val_main_v42 (F := Ideal) x1) (val_main_v43 (F := Ideal)) := by
  unfold val_main_v44 Host.scatterAdd
  exact Ideal.hostScatterAdd_def _ _ _ _ _

/-- The reference's histogram of its second argument is the specification's. -/
theorem val_main_v45_eq (hbin : ∀ x : EReal, (Cert.Hist.binOf x).toNat < 256)
    (x1 : (⟨S16x3x512x512, .f32⟩ : BufTy).Contents (Elt Ideal)) :
    val_main_v45 (F := Ideal) x1 = Cert.Hist.hist (shapeCast S48x262144 x1 shapeCasts_S16x3x512x512_S48x262144) := by
  funext i
  rw [val_main_v45_apply, v44_eq, idx45_eq]
  exact scatter_hist hbin (rows x1) _ _ _
    (fun j => by rw [val_main_v36_apply, val_main_cst_11_apply]; exact lit_zero)
    (fun j => by rw [val_main_v43_apply, val_main_cst_14_apply]; exact lit_one)
    (v42_toInt x1 hbin) i

end Cert.Hist.Ref

end
-- ==== Proof.lean ====
/-
  A histogram loss: the kernel's two-level one-hot histogram against the reference's scatter-add histogram.

  Both programs take two images pred, target : [16, 3, 512, 512], view each as 48 rows of 262144 pixels, send a pixel x to
  the bin  fptosi(min(255, max(0, 255·x)))  — one of 0 … 255 for every extended real x, so no finiteness of the inputs is
  used —, count for every row and bin the pixels that fall into it, and return the mean over the 48·256 counts of
  |count(pred)/262144 − count(target)/262144|.

  The kernel splits a bin index into its upper and lower four bits, builds for each pixel a 16-wide one-hot row for each
  half, and multiplies the two one-hot arrays along the pixel axis: entry (h, l) of the product counts the pixels of the
  tile whose bin is 16·h + l, because the product of the two indicators is the indicator of that bin.  It adds the 128
  tiles of a row group into a running table, starting from zeros at the first tile, and writes the table out after the
  last; over the extended reals the 128 partial counts add up to the count of the whole row.  The reference adds a one at
  flat position 256·row + bin for every pixel into an array of 12288 zeros; since a bin is below 256 the position
  determines row and bin, so the entry at 256·r + k is again the number of pixels of row r in bin k.  Both then reshape
  the counts to [16, 3, 256] and apply the same loss.

  Modules: HistSpec (the counts as one function of a [48, 262144] array), HistConsts, HistBin (a bin is below 256; the
  product of the two one-hot entries; the split of a row into tiles), KernelPoint (one grid point's arithmetic),
  KernelPieces / KernelAcc (what the body leaves in its buffers, point by point), KernelBlocks (where the blocks sit),
  KernelValue (the two output arrays are the tables of counts), KernelHost (the host lines around the launch),
  HistBridge (the reshape of a table of counts), RefHist (the reference's scatter-add stage is the counts).
-/
import proofs.«172190_j80625126080915_2_alg».proof.Defs
import proofs.«172190_j80625126080915_2_alg».proof.Proof.Gen.Kernel
import proofs.«172190_j80625126080915_2_alg».proof.Proof.Gen.Kernel.Skeleton
import proofs.«172190_j80625126080915_2_alg».proof.Proof.Gen.Kernel.Launch
import proofs.«172190_j80625126080915_2_alg».proof.Proof.Gen.Kernel.Points
import proofs.«172190_j80625126080915_2_alg».proof.Proof.Gen.Kernel.Frame
import proofs.«172190_j80625126080915_2_alg».proof.Proof.Gen.KernelIdeal
import proofs.«172190_j80625126080915_2_alg».proof.Proof.Gen.KernelIdeal.Skeleton
import proofs.«172190_j80625126080915_2_alg».proof.Proof.Gen.KernelIdeal.Launch
import proofs.«172190_j80625126080915_2_alg».proof.Proof.Gen.KernelIdeal.Points
import proofs.«172190_j80625126080915_2_alg».proof.Proof.Gen.KernelIdeal.Frame
import proofs.«172190_j80625126080915_2_alg».proof.Proof.Gen.ReferenceIdeal
import proofs.«172190_j80625126080915_2_alg».proof.Proof.Gen.Pre_finite_inputs
import proofs.«172190_j80625126080915_2_alg».proof.Proof.Gen.ReferenceIdeal.Run
import proofs.«172190_j80625126080915_2_alg».proof.Proof.Gen.ReferenceIdeal.Read
import proofs.«172190_j80625126080915_2_alg».proof.Proof.KernelValue
import proofs.«172190_j80625126080915_2_alg».proof.Proof.KernelHost
import proofs.«172190_j80625126080915_2_alg».proof.Proof.HistBridge
import proofs.«172190_j80625126080915_2_alg».proof.Proof.RefHist
import Idealize.ShloMosaic.Adequacy
import Idealize.ShloMosaic.Init

noncomputable section

namespace Cert.Proof

open Idealize.ShloMosaic Idealize.ShloMosaic.TcCoe Idealize.SL.Sem Cert.Hist

/-- The common result: the loss of the two inputs' histograms. -/
def result (x0 x1 : (⟨Cert.KernelIdeal.S16x3x512x512, .f32⟩ : BufTy).Contents (Elt Ideal)) :
    (⟨Cert.KernelIdeal.S_, .f32⟩ : BufTy).Contents (Elt Ideal) :=
  Cert.KernelIdeal.HostSide.loss (F := Ideal)
    (hist (shapeCast Cert.KernelIdeal.S48x262144 x0 Cert.KernelIdeal.Facts₀.shapeCasts_S16x3x512x512_S48x262144))
    (hist (shapeCast Cert.KernelIdeal.S48x262144 x1 Cert.KernelIdeal.Facts₀.shapeCasts_S16x3x512x512_S48x262144))

/-- The kernel ends with the result buffer at the loss of its arguments' histograms: its two output arrays are the
    tables of counts of the reshaped arguments, and a table of counts reshaped to [16, 3, 256] is the histogram. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v12)
          = result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono (fun _ h c => ⟨(h c).1.trans (by
      rw [Cert.KernelIdeal.Tables.final2 m c, Cert.KernelIdeal.Tables.final3 m c,
        Cert.KernelIdeal.HostSide.V_v0 m c, Cert.KernelIdeal.HostSide.V_v1 m c]
      exact congrArg₂ (Cert.KernelIdeal.HostSide.loss (F := Ideal)) (table_reshape _ _) (table_reshape _ _)), (h c).2⟩)
    (Cert.KernelIdeal.HostSide.run_named (F := Ideal) m ρ)

/-- The reference's last stages are the same loss of its two histogram stages. -/
theorem ref_loss (x0 x1 : (⟨Cert.ReferenceIdeal.S16x3x512x512, .f32⟩ : BufTy).Contents (Elt Ideal)) :
    Cert.ReferenceIdeal.Read.val_main_v51 (F := Ideal) x0 x1
      = Cert.KernelIdeal.HostSide.loss (F := Ideal) (Cert.ReferenceIdeal.Read.val_main_v21 (F := Ideal) x0)
          (Cert.ReferenceIdeal.Read.val_main_v45 (F := Ideal) x1) := by
  unfold Cert.ReferenceIdeal.Read.val_main_v51 Cert.ReferenceIdeal.Read.val_main_v50 Cert.ReferenceIdeal.Read.val_main_v49
    Cert.ReferenceIdeal.Read.val_main_v48 Cert.ReferenceIdeal.Read.val_main_v23 Cert.ReferenceIdeal.Read.val_main_v47
    Cert.ReferenceIdeal.Read.val_main_v22 Cert.ReferenceIdeal.Read.val_main_v46 Cert.ReferenceIdeal.Read.val_main_cst_6
    Cert.ReferenceIdeal.Read.val_main_cst_15 Cert.ReferenceIdeal.Read.val_main_cst_16 Cert.ReferenceIdeal.Read.val_main_cst_17
    Cert.KernelIdeal.HostSide.loss
  rfl

/-- The reference ends with its result buffer at the same function of its arguments: each scatter-add stage is the
    histogram of the reshaped argument. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v51)
          = result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono (fun _ h c => ⟨(h c).1.trans (by
      rw [Cert.ReferenceIdeal.Read.val_main_v51_eq, ref_loss, Cert.Hist.Ref.val_main_v21_eq binOf_lt,
        Cert.Hist.Ref.val_main_v45_eq binOf_lt]
      rfl), (h c).2⟩)
    (Cert.ReferenceIdeal.Value.run (F := Ideal) m ρ)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on the two arguments both programs end at the loss of the arguments' histograms. -/
theorem algebraic : Cert.algebraic_KernelIdeal_ReferenceIdeal := by
  intro m ρ m' ρ' _ hagree
  refine ⟨_, kernel_run m ρ, ?_⟩
  refine (θ_run (Cert.ReferenceIdeal.defs (F := Ideal)) _ _).mono (fun _ h c => ⟨(h c).1.trans ?_, (h c).2⟩) (reference_run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
